-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S512x512 .f32) (main_arg12 : FVec F S512x512 .f32) (main_arg13 : FVec F S512 .f32) (main_arg14 : FVec F S512x512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_arg14 main_v63 main_v67

def fn_part2 {F : FTy → Type} [FloatOps F] (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S32768x512 .f32) (main_arg1 : FVec F S32768x512 .f32) (main_arg2 : FVec F S32768x512 .f32) (main_arg3 : FVec F S512x512 .f32) (main_arg4 : FVec F S512 .f32) (main_arg5 : FVec F S512x512 .f32) (main_arg6 : FVec F S512x512 .f32) (main_arg7 : FVec F S512 .f32) (main_arg8 : FVec F S512x512 .f32) (main_arg9 : FVec F S512x512 .f32) (main_arg10 : FVec F S512 .f32) (main_arg11 : FVec F S512x512 .f32) (main_arg12 : FVec F S512x512 .f32) (main_arg13 : FVec F S512 .f32) (main_arg14 : FVec F S512x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S32768x512 : Shape := ⟨2, ![32768, 512]⟩
abbrev S512x512 : Shape := ⟨2, ![512, 512]⟩
abbrev S512 : Shape := ⟨1, ![512]⟩
abbrev S512x1536 : Shape := ⟨2, ![512, 1536]⟩
abbrev S1536 : Shape := ⟨1, ![1536]⟩
abbrev S1x1536 : Shape := ⟨2, ![1, 1536]⟩
abbrev S1024x512 : Shape := ⟨2, ![1024, 512]⟩
abbrev S1024x1536 : Shape := ⟨2, ![1024, 1536]⟩

abbrev nBuf : Space → Nat
  | .hbm => 23
  | .vmem => 11
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S512x1536, .f32⟩
  | .hbm, ⟨16, _⟩ => ⟨S512x1536, .bf16⟩
  | .hbm, ⟨17, _⟩ => ⟨S512x1536, .f32⟩
  | .hbm, ⟨18, _⟩ => ⟨S512x1536, .bf16⟩
  | .hbm, ⟨19, _⟩ => ⟨S1536, .f32⟩
  | .hbm, ⟨20, _⟩ => ⟨S1x1536, .f32⟩
  | .hbm, ⟨21, _⟩ => ⟨S32768x512, .f32⟩
  | .hbm, ⟨22, _⟩ => ⟨S32768x512, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x1536, .bf16⟩
  | .local _ .vmem, ⟨5, _⟩ => ⟨S512x1536, .bf16⟩
  | .local _ .vmem, ⟨6, _⟩ => ⟨S1x1536, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S512x512_S512x512_S512x512_S512x1536_d1 : Shape.Concatenates [S512x512, S512x512, S512x512] S512x1536 1
  bitsLt_bf16_f32 : FTy.bits .bf16 < FTy.bits .f32
  concatenates_S512_S512_S512_S1536_d0 : Shape.Concatenates [S512, S512, S512] S1536 0
  shapeCasts_S1536_S1x1536 : S1536.ShapeCasts S1x1536
  inb_S1024x512_S1024x512_0_0 : ∀ a, (![0, 0] : Fin 2 → Nat) a + S1024x512.size a ≤ S1024x512.size a
  h_S1024x512 : 0 < S1024x512.numel
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  slices_S1024x1536_o0_0_S1024x512 : S1024x1536.Slices ![0, 0] S1024x512
  slices_S1024x1536_o0_512_S1024x512 : S1024x1536.Slices ![0, 512] S1024x512
  slices_S1024x1536_o0_1024_S1024x512 : S1024x1536.Slices ![0, 1024] S1024x512
  dot_S1024x512_S512x1536_S1024x1536_1_0_0_1_n_n_wf : DotDims.WF S1024x512 S512x1536 S1024x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S32768x512.size a
  hwx0_1 : ∀ i : grid0.Coords, EltTy.bits .f32 = 32 ∨ (Rect.block (s := S32768x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x1536.size a
  hwx0_2 : ∀ i : grid0.Coords, EltTy.bits .bf16 = 32 ∨ (Rect.block (s := S512x1536) S512x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1536.size a ≤ S512x1536.size a
  hwx0_3 : ∀ i : grid0.Coords, EltTy.bits .bf16 = 32 ∨ (Rect.block (s := S512x1536) S512x1536.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x1536.size a
  hwx0_4 : ∀ i : grid0.Coords, EltTy.bits .f32 = 32 ∨ (Rect.block (s := S1x1536) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S32768x512.size a
  hwx0_5 : ∀ i : grid0.Coords, EltTy.bits .f32 = 32 ∨ (Rect.block (s := S32768x512) S1024x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S32768x512.size a
  hwx0_6 : ∀ i : grid0.Coords, EltTy.bits .f32 = 32 ∨ (Rect.block (s := S32768x512) S1024x512.size (cc0_transform_6 i) (hinb0_6 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1536.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S1024x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S1024x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S512x512, .f32⟩
  | .hbm, ⟨15, _⟩ => ⟨S32768x512, .f32⟩
  | .hbm, ⟨16, _⟩ => ⟨S1x512, .f32⟩
  | .hbm, ⟨17, _⟩ => ⟨S32768x512, .f32⟩
  | .hbm, ⟨18, _⟩ => ⟨S32768x512, .f32⟩
  | .hbm, ⟨19, _⟩ => ⟨S32768x512, .f32⟩
  | .hbm, ⟨20, _⟩ => ⟨S32768x512, .f32⟩
  | .hbm, ⟨21, _⟩ => ⟨S32768x512, .f32⟩
  | .hbm, ⟨22, _⟩ => ⟨S32768x512, .f32⟩
  | .hbm, ⟨23, _⟩ => ⟨S_, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S1x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S_, .f32⟩
  | .hbm, ⟨41, _⟩ => ⟨S32768x512, .f32⟩
  | .hbm, ⟨42, _⟩ => ⟨S32768x512, .f32⟩
  | .hbm, ⟨43, _⟩ => ⟨S32768x512, .f32⟩
  | .hbm, ⟨44, _⟩ => ⟨S1x512, .f32⟩
  | .hbm, ⟨45, _⟩ => ⟨S32768x512, .f32⟩
  | .hbm, ⟨46, _⟩ => ⟨S32768x512, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S1x512, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S_, .f32⟩
  | .hbm, ⟨60, _⟩ => ⟨S32768x512, .f32⟩
  | .hbm, ⟨61, _⟩ => ⟨S32768x512, .f32⟩
  | .hbm, ⟨62, _⟩ => ⟨S_, .f32⟩
  | .hbm, ⟨63, _⟩ => ⟨S32768x512, .f32⟩
  | .hbm, ⟨64, _⟩ => ⟨S32768x512, .f32⟩
  | .hbm, ⟨65, _⟩ => ⟨S32768x512, .f32⟩
  | .hbm, ⟨66, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_3 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.BitsEntry.lean ====
/-
  What the kernel region of the program as printed finds when it is entered.

  Before the region, the program's main function runs six host operations: the three input-gate,
  candidate and output-gate weight matrices of the input path are laid side by side along the
  output axis into one 512 x 1536 matrix and narrowed to bf16; the same for the three matrices of
  the hidden path; and the three bias vectors are laid end to end into one vector of 1536 entries,
  reshaped to a single row. Each operation writes one buffer of its own and nothing else. So every
  other buffer (in particular each of the fifteen argument arrays) holds, at the region's entry,
  exactly what it held at launch.
-/
import proofs.«101878_j76647986364859_2_alg».proof.Proof.Gen.Kernel.Launch
import proofs.«101878_j76647986364859_2_alg».proof.Proof.Gen.Kernel.Skeleton
import proofs.«101878_j76647986364859_2_alg».proof.Proof.Gen.Kernel.Points
import Idealize.ShloMosaic.Lib.Pipeline.FrameBody
import Idealize.ShloMosaic.Lib.Pipeline.Frame
import Idealize.ShloMosaic.Lib.StableHlo.Run

noncomputable section

namespace Cert.Kernel.Entry

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ)

/-- The contents of buffer `b` on core `c` when the region is entered: the launch memory after the
    six host operations. -/
abbrev V (c : Dev nD) (b : Ref sig .tc) : Buf (Elt F) ((c : Thread nD τ).loc b) :=
  StableHlo.after hostOps0 (fun b => m (c, b)) b

/-- None of the six host operations allocates a buffer. -/
theorem prefix_allocates_nothing :
    (hostOps0 : List (HloOp τ sig (Elt F))).Forall fun op => op.fresh = ∅ := by
  simp only [List.Forall]; repeat' constructor

/-- The main function is the six host operations followed by the region, and the region is entered
    at the contents `V`. -/
theorem main_reaches_region (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prefix_allocates_nothing main_chain

/-- A buffer that is none of the six results of the host operations enters the region as launched:
    each operation writes only its own result. -/
theorem V_of_not_result (c : Dev nD) (b : Ref sig .tc)
    (h0 : main_v0 ≠ b) (h1 : main_v1 ≠ b) (h2 : main_v2 ≠ b) (h3 : main_v3 ≠ b) (h4 : main_v4 ≠ b) (h5 : main_v5 ≠ b) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0.symm, StableHlo.devRef_ne_of_ne h1.symm, StableHlo.devRef_ne_of_ne h2.symm,
      StableHlo.devRef_ne_of_ne h3.symm, StableHlo.devRef_ne_of_ne h4.symm, StableHlo.devRef_ne_of_ne h5.symm⟩))

/-- Each argument array enters the region as launched. -/
theorem V_arg0 (c : Dev nD) : V m c main_arg0 = m ((c : Thread nD τ).loc main_arg0) :=
  V_of_not_result m c main_arg0 (by decide) (by decide) (by decide) (by decide) (by decide) (by decide)
theorem V_arg1 (c : Dev nD) : V m c main_arg1 = m ((c : Thread nD τ).loc main_arg1) :=
  V_of_not_result m c main_arg1 (by decide) (by decide) (by decide) (by decide) (by decide) (by decide)
theorem V_arg2 (c : Dev nD) : V m c main_arg2 = m ((c : Thread nD τ).loc main_arg2) :=
  V_of_not_result m c main_arg2 (by decide) (by decide) (by decide) (by decide) (by decide) (by decide)
theorem V_arg3 (c : Dev nD) : V m c main_arg3 = m ((c : Thread nD τ).loc main_arg3) :=
  V_of_not_result m c main_arg3 (by decide) (by decide) (by decide) (by decide) (by decide) (by decide)
theorem V_arg4 (c : Dev nD) : V m c main_arg4 = m ((c : Thread nD τ).loc main_arg4) :=
  V_of_not_result m c main_arg4 (by decide) (by decide) (by decide) (by decide) (by decide) (by decide)
theorem V_arg5 (c : Dev nD) : V m c main_arg5 = m ((c : Thread nD τ).loc main_arg5) :=
  V_of_not_result m c main_arg5 (by decide) (by decide) (by decide) (by decide) (by decide) (by decide)
theorem V_arg6 (c : Dev nD) : V m c main_arg6 = m ((c : Thread nD τ).loc main_arg6) :=
  V_of_not_result m c main_arg6 (by decide) (by decide) (by decide) (by decide) (by decide) (by decide)
theorem V_arg7 (c : Dev nD) : V m c main_arg7 = m ((c : Thread nD τ).loc main_arg7) :=
  V_of_not_result m c main_arg7 (by decide) (by decide) (by decide) (by decide) (by decide) (by decide)
theorem V_arg8 (c : Dev nD) : V m c main_arg8 = m ((c : Thread nD τ).loc main_arg8) :=
  V_of_not_result m c main_arg8 (by decide) (by decide) (by decide) (by decide) (by decide) (by decide)
theorem V_arg9 (c : Dev nD) : V m c main_arg9 = m ((c : Thread nD τ).loc main_arg9) :=
  V_of_not_result m c main_arg9 (by decide) (by decide) (by decide) (by decide) (by decide) (by decide)
theorem V_arg10 (c : Dev nD) : V m c main_arg10 = m ((c : Thread nD τ).loc main_arg10) :=
  V_of_not_result m c main_arg10 (by decide) (by decide) (by decide) (by decide) (by decide) (by decide)
theorem V_arg11 (c : Dev nD) : V m c main_arg11 = m ((c : Thread nD τ).loc main_arg11) :=
  V_of_not_result m c main_arg11 (by decide) (by decide) (by decide) (by decide) (by decide) (by decide)
theorem V_arg12 (c : Dev nD) : V m c main_arg12 = m ((c : Thread nD τ).loc main_arg12) :=
  V_of_not_result m c main_arg12 (by decide) (by decide) (by decide) (by decide) (by decide) (by decide)
theorem V_arg13 (c : Dev nD) : V m c main_arg13 = m ((c : Thread nD τ).loc main_arg13) :=
  V_of_not_result m c main_arg13 (by decide) (by decide) (by decide) (by decide) (by decide) (by decide)
theorem V_arg14 (c : Dev nD) : V m c main_arg14 = m ((c : Thread nD τ).loc main_arg14) :=
  V_of_not_result m c main_arg14 (by decide) (by decide) (by decide) (by decide) (by decide) (by decide)

/-- Window `w`'s block at grid point `t`: the rectangle of the window's array, as the region finds
    it, that the point's index map selects. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.Kernel.Entry

end
-- ==== Proof.BitsBody.lean ====
/-
  One run of the kernel body of the program as printed, on any core and at any grid point.

  The body reads five buffers whole: a 1024 x 512 block of x, a 1024 x 512 block of h, the two
  512 x 1536 side-by-side weight matrices, and the 1 x 1536 bias row. From them it forms the
  1024 x 1536 matrix of gate logits  z = x.Wx + h.Wh + b  and cuts it into three 1024 x 512 panels
  at columns 0, 512 and 1024. With  i = logistic(panel 0),  g = tanh(panel 1),  o = logistic(panel 2)
  it stores  c' = i * g  into the cell-state buffer and  h' = o * tanh(c')  into the hidden-state
  buffer, each store covering its whole buffer. (It also reads the two output buffers before
  storing, and uses neither value.)

  Hence: if the five input buffers hold x, h, Wx, Wh, b and the two output buffers hold anything,
  the body runs without fault, leaves the inputs as they were, and leaves the outputs holding h'
  and c' as functions of the five inputs alone.
-/
import proofs.«101878_j76647986364859_2_alg».proof.Proof.BitsEntry
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole 1024 x 512 buffer as a rectangle: origin (0, 0), every row and column. -/
abbrev wholeBlock : Rect S1024x512 :=
  Rect.unit (s := S1024x512) ![0, 0] S1024x512.size Facts₀.inb_S1024x512_S1024x512_0_0
/-- The whole 512 x 1536 weight buffer as a rectangle. -/
abbrev wholeWeights : Rect S512x1536 :=
  Rect.unit (s := S512x1536) ![0, 0] S512x1536.size Facts₀.inb_S512x1536_S512x1536_0_0
/-- The whole 1 x 1536 bias row as a rectangle. -/
abbrev wholeBias : Rect S1x1536 :=
  Rect.unit (s := S1x1536) ![0, 0] S1x1536.size Facts₀.inb_S1x1536_S1x1536_0_0

/-- What the body leaves in the hidden-state buffer: the single whole-buffer store of
    o * tanh(i * g), as a function of the five input buffers' contents. -/
def hiddenOut (x h : Vec F S1024x512 .f32) (wx wh : Vec F S512x1536 .bf16) (b : Vec F S1x1536 .f32) :
    Vec F S1024x512 .f32 :=
  View.canon [⟨wholeBlock, k0_pay3 (View.ld x wholeBlock) (View.ld h wholeBlock) (View.ld wx wholeWeights)
    (View.ld wh wholeWeights) (View.ld b wholeBias)⟩]

/-- What the body leaves in the cell-state buffer: the single whole-buffer store of i * g. -/
def cellOut (x h : Vec F S1024x512 .f32) (wx wh : Vec F S512x1536 .bf16) (b : Vec F S1x1536 .f32) :
    Vec F S1024x512 .f32 :=
  View.canon [⟨wholeBlock, k0_pay2 (View.ld x wholeBlock) (View.ld h wholeBlock) (View.ld wx wholeWeights)
    (View.ld wh wholeWeights) (View.ld b wholeBias)⟩]

/-- A single store through the whole-buffer rectangle covers every index of the buffer. -/
theorem whole_store_covers (p : Vec F S1024x512 .f32) (y : S1024x512.Idx) :
    ∃ pc ∈ ([⟨wholeBlock, p⟩] : List (View.Piece (Elt F) S1024x512 .f32)), y ∈ pc.1.set :=
  View.cover_of_tiled [⟨wholeBlock, p⟩] S1024x512.size (by rfl) y

set_option maxHeartbeats 1000000 in
/-- The body's triple: from the five inputs at x, h, wx, wh, b and the two outputs at anything, it
    runs to a state with the inputs unchanged and the outputs at `hiddenOut` and `cellOut`. -/
theorem body_runs (c : Dev nD) (E : Set ℕ) (i : grid0.Coords)
    (a1 : Memref sig .tc .vmem S1024x512 .f32) (h1 : a1.IsWhole)
    (a2 : Memref sig .tc .vmem S1024x512 .f32) (h2 : a2.IsWhole)
    (a3 : Memref sig .tc .vmem S512x1536 .bf16) (h3 : a3.IsWhole)
    (a4 : Memref sig .tc .vmem S512x1536 .bf16) (h4 : a4.IsWhole)
    (a5 : Memref sig .tc .vmem S1x1536 .f32) (h5 : a5.IsWhole)
    (a6 : Memref sig .tc .vmem S1024x512 .f32) (h6 : a6.IsWhole)
    (a7 : Memref sig .tc .vmem S1024x512 .f32) (h7 : a7.IsWhole)
    (x h : Vec F S1024x512 .f32) (wx wh : Vec F S512x1536 .bf16) (b : Vec F S1x1536 .f32)
    (K : PUnit → sProp 𝕄) :
    iprop(owns (c : Thread nD τ) a1 fullShare x ∗ owns (c : Thread nD τ) a2 fullShare h
        ∗ owns (c : Thread nD τ) a3 fullShare wx ∗ owns (c : Thread nD τ) a4 fullShare wh
        ∗ owns (c : Thread nD τ) a5 fullShare b
        ∗ (∃ d, owns (c : Thread nD τ) a6 fullShare d) ∗ (∃ d, owns (c : Thread nD τ) a7 fullShare d)
        ∗ (iprop(owns (c : Thread nD τ) a1 fullShare x ∗ owns (c : Thread nD τ) a2 fullShare h
            ∗ owns (c : Thread nD τ) a3 fullShare wx ∗ owns (c : Thread nD τ) a4 fullShare wh
            ∗ owns (c : Thread nD τ) a5 fullShare b
            ∗ owns (c : Thread nD τ) a6 fullShare (hiddenOut x h wx wh b)
            ∗ owns (c : Thread nD τ) a7 fullShare (cellOut x h wx wh b)) -∗ K ⟨⟩))
      ⊢ wp frame (wpE (defs₀ (F := F)) Variants.none c none) E
          (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩,
    ⟨%d6, %f6, -, H6⟩, ⟨%d7, %f7, -, H7⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  · iexists _; isplitr
    swap; · iexact H7
    ipureintro
    exact View.read_writes_eq_canon _ _ _ (whole_store_covers _)

end Cert.Kernel.Body

end
-- ==== Proof.BitsRun.lean ====
/-
  The whole run of the program as printed, and its frame.

  The region is a pipeline over 32 grid points. At point t it stages rows [1024 t, 1024 t + 1024) of x
  and of h, the two weight matrices and the bias row (these three whole, staged once and found again
  at every later point), runs the body, and writes the two 1024 x 512 results back to the same rows
  of the two output arrays. The proof data says what each staging buffer holds after the body: an
  input its block, untouched; the two outputs what the body's triple says they hold, as functions of
  the five input blocks at that point.

  From the body's triple at a generic point, the pipeline's launch theorem gives: every weakly fair
  execution of the main function terminates without fault; each output array ends at the blocks the
  points wrote; every other buffer ends as the region found it. The fifteen argument arrays are
  written by no host operation and by no write-back, so they end as launched.
-/
import proofs.«101878_j76647986364859_2_alg».proof.Proof.BitsBody

set_option maxRecDepth 16384

noncomputable section

namespace Cert.Kernel.Run

open Cert.Kernel Cert.Kernel.Gen Cert.Kernel.Entry Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's
    staging buffer at its block and each output's at the body's result on the five input blocks;
    the invariant the scratch-free one; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenOut (iblk m c 0 t) (iblk m c 1 t) (iblk m c 2 t) (iblk m c 3 t) (iblk m c 4 t)
    | ⟨6, _⟩ => cellOut (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_wx (c : Dev nD) (t : Fin cfg0.N) : (dats m 0 c).after 2 t = iblk m c 2 t := by dsimp only [dats]
theorem after_wh (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_hidden (c : Dev nD) (t : Fin cfg0.N) : (dats m 0 c).after 5 t
    = hiddenOut (iblk m c 0 t) (iblk m c 1 t) (iblk m c 2 t) (iblk m c 3 t) (iblk m c 4 t) := by dsimp only [dats]
theorem after_cell (c : Dev nD) (t : Fin cfg0.N) : (dats m 0 c).after 6 t
    = cellOut (iblk m c 0 t) (iblk m c 1 t) (iblk m c 2 t) (iblk m c 3 t) (iblk m c 4 t) := by dsimp only [dats]

/-! ## Each input's staging buffer holds its block when the body runs

Fetched at this point or not: a window not fetched here has not moved since the point that fetched
it, and the body leaves every input buffer as it found it. -/

theorem before_x (c : Dev nD) (t : Fin cfg0.N) (d) : (dats m 0 c).before 0 t d = iblk m c 0 t :=
  ((dats m 0 c).before_in_eq_fetched 0 rfl (fun _ => rfl) (fun _ _ _ => rfl)
    (fun t => by rw [after_x]; unfold Dat.blockOf iblk; rw [A_eq]; try rfl) t d).trans
    (by unfold Dat.fetched Dat.blockOf iblk; rw [A_eq]; try rfl)
theorem before_h (c : Dev nD) (t : Fin cfg0.N) (d) : (dats m 0 c).before 1 t d = iblk m c 1 t :=
  ((dats m 0 c).before_in_eq_fetched 1 rfl (fun _ => rfl) (fun _ _ _ => rfl)
    (fun t => by rw [after_h]; unfold Dat.blockOf iblk; rw [A_eq]; try rfl) t d).trans
    (by unfold Dat.fetched Dat.blockOf iblk; rw [A_eq]; try rfl)
theorem before_wx (c : Dev nD) (t : Fin cfg0.N) (d) : (dats m 0 c).before 2 t d = iblk m c 2 t :=
  ((dats m 0 c).before_in_eq_fetched 2 rfl (fun _ => rfl) (fun _ _ _ => rfl)
    (fun t => by rw [after_wx]; unfold Dat.blockOf iblk; rw [A_eq]; try rfl) t d).trans
    (by unfold Dat.fetched Dat.blockOf iblk; rw [A_eq]; try rfl)
theorem before_wh (c : Dev nD) (t : Fin cfg0.N) (d) : (dats m 0 c).before 3 t d = iblk m c 3 t :=
  ((dats m 0 c).before_in_eq_fetched 3 rfl (fun _ => rfl) (fun _ _ _ => rfl)
    (fun t => by rw [after_wh]; unfold Dat.blockOf iblk; rw [A_eq]; try rfl) t d).trans
    (by unfold Dat.fetched Dat.blockOf iblk; rw [A_eq]; try rfl)
theorem before_b (c : Dev nD) (t : Fin cfg0.N) (d) : (dats m 0 c).before 4 t d = iblk m c 4 t :=
  ((dats m 0 c).before_in_eq_fetched 4 rfl (fun _ => rfl) (fun _ _ _ => rfl)
    (fun t => by rw [after_b]; unfold Dat.blockOf iblk; rw [A_eq]; try rfl) t d).trans
    (by unfold Dat.fetched Dat.blockOf iblk; rw [A_eq]; try rfl)

/-! ## The body at a generic point -/

/-- What the pipeline hands the body at point `t`: the invariant, the core's debt (none), and the
    seven current staging buffers. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the five input buffers hold their blocks, so the body's triple applies; the
    invariant and the debt pass through untouched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_x, before_h, before_wx, before_wh, before_b]
  rw [show (dats m 0 c).Φ t.succ = (dats m 0 c).Φ t.castSucc from rfl,
    show (dats m 0 c).owesAt () t.succ = (dats m 0 c).owesAt () t.castSucc from rfl,
    after_x, after_h, after_wx, after_wh, after_b, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) :
    BodyObligation (dats (F := F) m 0 c) (defs₀ (F := F)) Variants.none () Set.univ := fun t => by
  rw [bigSep_W0, bigSep_W0]
  exact body_at_point m c t

/-! ## The run -/

set_option backward.isDefEq.respectTransparency.types false in
/-- From any memory with zero counters, every weakly fair execution of the main function terminates
    without fault; each window's array ends at what the write-backs made of it and every other
    unscoped buffer at what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := main_reaches_region m Variants.none) (hA := A_eq m)
    (hΦ := fun _ _ => rfl)

/-! ## The arguments end as launched -/

variable {m ρ}

/-- x and h are staged as input windows: an input window's array is never written. -/
theorem end_arg0 {r : PUnit × MemSt nD τ sig (Elt F)} (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (V_arg0 m c))
theorem end_arg1 {r : PUnit × MemSt nD τ sig (Elt F)} (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans (V_arg1 m c))

/-- The other thirteen arguments are no window's array: they bypass the region. -/
theorem end_arg2 {r : PUnit × MemSt nD τ sig (Elt F)} (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_arg2 m c)
theorem end_arg3 {r : PUnit × MemSt nD τ sig (Elt F)} (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_arg3 m c)
theorem end_arg4 {r : PUnit × MemSt nD τ sig (Elt F)} (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_arg4 m c)
theorem end_arg5 {r : PUnit × MemSt nD τ sig (Elt F)} (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_arg5 m c)
theorem end_arg6 {r : PUnit × MemSt nD τ sig (Elt F)} (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_arg6 m c)
theorem end_arg7 {r : PUnit × MemSt nD τ sig (Elt F)} (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_arg7 m c)
theorem end_arg8 {r : PUnit × MemSt nD τ sig (Elt F)} (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_arg8 m c)
theorem end_arg9 {r : PUnit × MemSt nD τ sig (Elt F)} (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_arg9 m c)
theorem end_arg10 {r : PUnit × MemSt nD τ sig (Elt F)} (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_arg10 m c)
theorem end_arg11 {r : PUnit × MemSt nD τ sig (Elt F)} (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_arg11 m c)
theorem end_arg12 {r : PUnit × MemSt nD τ sig (Elt F)} (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_arg12 m c)
theorem end_arg13 {r : PUnit × MemSt nD τ sig (Elt F)} (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_arg13 m c)
theorem end_arg14 {r : PUnit × MemSt nD τ sig (Elt F)} (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_arg14 m c)

variable (m ρ)

/-- The frame: the program runs to the end, faults nowhere, and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨end_arg0 h c, end_arg1 h c, end_arg2 h c, end_arg3 h c, end_arg4 h c,
    end_arg5 h c, end_arg6 h c, end_arg7 h c, end_arg8 h c, end_arg9 h c, end_arg10 h c, end_arg11 h c,
    end_arg12 h c, end_arg13 h c, end_arg14 h c⟩) (run_main m ρ)

end Cert.Kernel.Run

end
-- ==== Proof.IdealEntry.lean ====
/-
  What the kernel region of the idealized program finds when it is entered.

  Before the region, the program's main function runs six host operations: the three input-gate,
  candidate and output-gate weight matrices of the input path are laid side by side along the
  output axis into one 512 x 1536 matrix and narrowed to bf16; the same for the three matrices of
  the hidden path; and the three bias vectors are laid end to end into one vector of 1536 entries,
  reshaped to a single row. Each operation writes one buffer of its own and nothing else. So every
  other buffer (in particular each of the fifteen argument arrays) holds, at the region's entry,
  exactly what it held at launch.
-/
import proofs.«101878_j76647986364859_2_alg».proof.Proof.Gen.KernelIdeal.Launch
import proofs.«101878_j76647986364859_2_alg».proof.Proof.Gen.KernelIdeal.Skeleton
import proofs.«101878_j76647986364859_2_alg».proof.Proof.Gen.KernelIdeal.Points
import Idealize.ShloMosaic.Lib.Pipeline.FrameBody
import Idealize.ShloMosaic.Lib.Pipeline.Frame
import Idealize.ShloMosaic.Lib.StableHlo.Run

noncomputable section

namespace Cert.KernelIdeal.Entry

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat)

variable {F : FTy → Type} [FloatOps F]
variable (m : (ℓ : Loc nD τ sig) → Buf (Elt F) ℓ)

/-- The contents of buffer `b` on core `c` when the region is entered: the launch memory after the
    six host operations. -/
abbrev V (c : Dev nD) (b : Ref sig .tc) : Buf (Elt F) ((c : Thread nD τ).loc b) :=
  StableHlo.after hostOps0 (fun b => m (c, b)) b

/-- None of the six host operations allocates a buffer. -/
theorem prefix_allocates_nothing :
    (hostOps0 : List (HloOp τ sig (Elt F))).Forall fun op => op.fresh = ∅ := by
  simp only [List.Forall]; repeat' constructor

/-- The main function is the six host operations followed by the region, and the region is entered
    at the contents `V`. -/
theorem main_reaches_region (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub prefix_allocates_nothing main_chain

/-- A buffer that is none of the six results of the host operations enters the region as launched:
    each operation writes only its own result. -/
theorem V_of_not_result (c : Dev nD) (b : Ref sig .tc)
    (h0 : main_v0 ≠ b) (h1 : main_v1 ≠ b) (h2 : main_v2 ≠ b) (h3 : main_v3 ≠ b) (h4 : main_v4 ≠ b) (h5 : main_v5 ≠ b) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0.symm, StableHlo.devRef_ne_of_ne h1.symm, StableHlo.devRef_ne_of_ne h2.symm,
      StableHlo.devRef_ne_of_ne h3.symm, StableHlo.devRef_ne_of_ne h4.symm, StableHlo.devRef_ne_of_ne h5.symm⟩))

/-- Each argument array enters the region as launched. -/
theorem V_arg0 (c : Dev nD) : V m c main_arg0 = m ((c : Thread nD τ).loc main_arg0) :=
  V_of_not_result m c main_arg0 (by decide) (by decide) (by decide) (by decide) (by decide) (by decide)
theorem V_arg1 (c : Dev nD) : V m c main_arg1 = m ((c : Thread nD τ).loc main_arg1) :=
  V_of_not_result m c main_arg1 (by decide) (by decide) (by decide) (by decide) (by decide) (by decide)
theorem V_arg2 (c : Dev nD) : V m c main_arg2 = m ((c : Thread nD τ).loc main_arg2) :=
  V_of_not_result m c main_arg2 (by decide) (by decide) (by decide) (by decide) (by decide) (by decide)
theorem V_arg3 (c : Dev nD) : V m c main_arg3 = m ((c : Thread nD τ).loc main_arg3) :=
  V_of_not_result m c main_arg3 (by decide) (by decide) (by decide) (by decide) (by decide) (by decide)
theorem V_arg4 (c : Dev nD) : V m c main_arg4 = m ((c : Thread nD τ).loc main_arg4) :=
  V_of_not_result m c main_arg4 (by decide) (by decide) (by decide) (by decide) (by decide) (by decide)
theorem V_arg5 (c : Dev nD) : V m c main_arg5 = m ((c : Thread nD τ).loc main_arg5) :=
  V_of_not_result m c main_arg5 (by decide) (by decide) (by decide) (by decide) (by decide) (by decide)
theorem V_arg6 (c : Dev nD) : V m c main_arg6 = m ((c : Thread nD τ).loc main_arg6) :=
  V_of_not_result m c main_arg6 (by decide) (by decide) (by decide) (by decide) (by decide) (by decide)
theorem V_arg7 (c : Dev nD) : V m c main_arg7 = m ((c : Thread nD τ).loc main_arg7) :=
  V_of_not_result m c main_arg7 (by decide) (by decide) (by decide) (by decide) (by decide) (by decide)
theorem V_arg8 (c : Dev nD) : V m c main_arg8 = m ((c : Thread nD τ).loc main_arg8) :=
  V_of_not_result m c main_arg8 (by decide) (by decide) (by decide) (by decide) (by decide) (by decide)
theorem V_arg9 (c : Dev nD) : V m c main_arg9 = m ((c : Thread nD τ).loc main_arg9) :=
  V_of_not_result m c main_arg9 (by decide) (by decide) (by decide) (by decide) (by decide) (by decide)
theorem V_arg10 (c : Dev nD) : V m c main_arg10 = m ((c : Thread nD τ).loc main_arg10) :=
  V_of_not_result m c main_arg10 (by decide) (by decide) (by decide) (by decide) (by decide) (by decide)
theorem V_arg11 (c : Dev nD) : V m c main_arg11 = m ((c : Thread nD τ).loc main_arg11) :=
  V_of_not_result m c main_arg11 (by decide) (by decide) (by decide) (by decide) (by decide) (by decide)
theorem V_arg12 (c : Dev nD) : V m c main_arg12 = m ((c : Thread nD τ).loc main_arg12) :=
  V_of_not_result m c main_arg12 (by decide) (by decide) (by decide) (by decide) (by decide) (by decide)
theorem V_arg13 (c : Dev nD) : V m c main_arg13 = m ((c : Thread nD τ).loc main_arg13) :=
  V_of_not_result m c main_arg13 (by decide) (by decide) (by decide) (by decide) (by decide) (by decide)
theorem V_arg14 (c : Dev nD) : V m c main_arg14 = m ((c : Thread nD τ).loc main_arg14) :=
  V_of_not_result m c main_arg14 (by decide) (by decide) (by decide) (by decide) (by decide) (by decide)

/-- Window `w`'s block at grid point `t`: the rectangle of the window's array, as the region finds
    it, that the point's index map selects. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

end Cert.KernelIdeal.Entry

end
-- ==== Proof.IdealBody.lean ====
/-
  One run of the kernel body of the idealized program, on any core and at any grid point.

  The body reads five buffers whole: a 1024 x 512 block of x, a 1024 x 512 block of h, the two
  512 x 1536 side-by-side weight matrices, and the 1 x 1536 bias row. From them it forms the
  1024 x 1536 matrix of gate logits  z = x.Wx + h.Wh + b  and cuts it into three 1024 x 512 panels
  at columns 0, 512 and 1024. With  i = logistic(panel 0),  g = tanh(panel 1),  o = logistic(panel 2)
  it stores  c' = i * g  into the cell-state buffer and  h' = o * tanh(c')  into the hidden-state
  buffer, each store covering its whole buffer. (It also reads the two output buffers before
  storing, and uses neither value.)

  Hence: if the five input buffers hold x, h, Wx, Wh, b and the two output buffers hold anything,
  the body runs without fault, leaves the inputs as they were, and leaves the outputs holding h'
  and c' as functions of the five inputs alone.
-/
import proofs.«101878_j76647986364859_2_alg».proof.Proof.IdealEntry
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The whole 1024 x 512 buffer as a rectangle: origin (0, 0), every row and column. -/
abbrev wholeBlock : Rect S1024x512 :=
  Rect.unit (s := S1024x512) ![0, 0] S1024x512.size Facts₀.inb_S1024x512_S1024x512_0_0
/-- The whole 512 x 1536 weight buffer as a rectangle. -/
abbrev wholeWeights : Rect S512x1536 :=
  Rect.unit (s := S512x1536) ![0, 0] S512x1536.size Facts₀.inb_S512x1536_S512x1536_0_0
/-- The whole 1 x 1536 bias row as a rectangle. -/
abbrev wholeBias : Rect S1x1536 :=
  Rect.unit (s := S1x1536) ![0, 0] S1x1536.size Facts₀.inb_S1x1536_S1x1536_0_0

/-- What the body leaves in the hidden-state buffer: the single whole-buffer store of
    o * tanh(i * g), as a function of the five input buffers' contents. -/
def hiddenOut (x h : Vec F S1024x512 .f32) (wx wh : Vec F S512x1536 .bf16) (b : Vec F S1x1536 .f32) :
    Vec F S1024x512 .f32 :=
  View.canon [⟨wholeBlock, k0_pay3 (View.ld x wholeBlock) (View.ld h wholeBlock) (View.ld wx wholeWeights)
    (View.ld wh wholeWeights) (View.ld b wholeBias)⟩]

/-- What the body leaves in the cell-state buffer: the single whole-buffer store of i * g. -/
def cellOut (x h : Vec F S1024x512 .f32) (wx wh : Vec F S512x1536 .bf16) (b : Vec F S1x1536 .f32) :
    Vec F S1024x512 .f32 :=
  View.canon [⟨wholeBlock, k0_pay2 (View.ld x wholeBlock) (View.ld h wholeBlock) (View.ld wx wholeWeights)
    (View.ld wh wholeWeights) (View.ld b wholeBias)⟩]

/-- A single store through the whole-buffer rectangle covers every index of the buffer. -/
theorem whole_store_covers (p : Vec F S1024x512 .f32) (y : S1024x512.Idx) :
    ∃ pc ∈ ([⟨wholeBlock, p⟩] : List (View.Piece (Elt F) S1024x512 .f32)), y ∈ pc.1.set :=
  View.cover_of_tiled [⟨wholeBlock, p⟩] S1024x512.size (by rfl) y

set_option maxHeartbeats 1000000 in
/-- The body's triple: from the five inputs at x, h, wx, wh, b and the two outputs at anything, it
    runs to a state with the inputs unchanged and the outputs at `hiddenOut` and `cellOut`. -/
theorem body_runs (c : Dev nD) (E : Set ℕ) (i : grid0.Coords)
    (a1 : Memref sig .tc .vmem S1024x512 .f32) (h1 : a1.IsWhole)
    (a2 : Memref sig .tc .vmem S1024x512 .f32) (h2 : a2.IsWhole)
    (a3 : Memref sig .tc .vmem S512x1536 .bf16) (h3 : a3.IsWhole)
    (a4 : Memref sig .tc .vmem S512x1536 .bf16) (h4 : a4.IsWhole)
    (a5 : Memref sig .tc .vmem S1x1536 .f32) (h5 : a5.IsWhole)
    (a6 : Memref sig .tc .vmem S1024x512 .f32) (h6 : a6.IsWhole)
    (a7 : Memref sig .tc .vmem S1024x512 .f32) (h7 : a7.IsWhole)
    (x h : Vec F S1024x512 .f32) (wx wh : Vec F S512x1536 .bf16) (b : Vec F S1x1536 .f32)
    (K : PUnit → sProp 𝕄) :
    iprop(owns (c : Thread nD τ) a1 fullShare x ∗ owns (c : Thread nD τ) a2 fullShare h
        ∗ owns (c : Thread nD τ) a3 fullShare wx ∗ owns (c : Thread nD τ) a4 fullShare wh
        ∗ owns (c : Thread nD τ) a5 fullShare b
        ∗ (∃ d, owns (c : Thread nD τ) a6 fullShare d) ∗ (∃ d, owns (c : Thread nD τ) a7 fullShare d)
        ∗ (iprop(owns (c : Thread nD τ) a1 fullShare x ∗ owns (c : Thread nD τ) a2 fullShare h
            ∗ owns (c : Thread nD τ) a3 fullShare wx ∗ owns (c : Thread nD τ) a4 fullShare wh
            ∗ owns (c : Thread nD τ) a5 fullShare b
            ∗ owns (c : Thread nD τ) a6 fullShare (hiddenOut x h wx wh b)
            ∗ owns (c : Thread nD τ) a7 fullShare (cellOut x h wx wh b)) -∗ K ⟨⟩))
      ⊢ wp frame (wpE (defs₀ (F := F)) Variants.none c none) E
          (cc0__lstm_kernel i a1 h1 a2 h2 a3 h3 a4 h4 a5 h5 a6 h6 a7 h7) K := by
  simp only [cc0__lstm_kernel_eq_skeleton]; unfold cc0__lstm_kernel_skel
  unfold owns
  iintro ⟨⟨%f1, %e1, H1⟩, ⟨%f2, %e2, H2⟩, ⟨%f3, %e3, H3⟩, ⟨%f4, %e4, H4⟩, ⟨%f5, %e5, H5⟩,
    ⟨%d6, %f6, -, H6⟩, ⟨%d7, %f7, -, H7⟩, Hk⟩
  subst e1 e2 e3 e4 e5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole_store_covers _)
  · iexists _; isplitr
    swap; · iexact H7
    ipureintro
    exact View.read_writes_eq_canon _ _ _ (whole_store_covers _)

end Cert.KernelIdeal.Body

end
-- ==== Proof.IdealRun.lean ====
/-
  The whole run of the idealized program, and its frame.

  The region is a pipeline over 32 grid points. At point t it stages rows [1024 t, 1024 t + 1024) of x
  and of h, the two weight matrices and the bias row (these three whole, staged once and found again
  at every later point), runs the body, and writes the two 1024 x 512 results back to the same rows
  of the two output arrays. The proof data says what each staging buffer holds after the body: an
  input its block, untouched; the two outputs what the body's triple says they hold, as functions of
  the five input blocks at that point.

  From the body's triple at a generic point, the pipeline's launch theorem gives: every weakly fair
  execution of the main function terminates without fault; each output array ends at the blocks the
  points wrote; every other buffer ends as the region found it. The fifteen argument arrays are
  written by no host operation and by no write-back, so they end as launched.
-/
import proofs.«101878_j76647986364859_2_alg».proof.Proof.IdealBody

set_option maxRecDepth 16384

noncomputable section

namespace Cert.KernelIdeal.Run

open Cert.KernelIdeal Cert.KernelIdeal.Gen Cert.KernelIdeal.Entry Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's
    staging buffer at its block and each output's at the body's result on the five input blocks;
    the invariant the scratch-free one; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => hiddenOut (iblk m c 0 t) (iblk m c 1 t) (iblk m c 2 t) (iblk m c 3 t) (iblk m c 4 t)
    | ⟨6, _⟩ => cellOut (iblk m c 0 t) (iblk m c 1 t) (iblk m c 2 t) (iblk m c 3 t) (iblk m c 4 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after_x (c : Dev nD) (t : Fin cfg0.N) : (dats m 0 c).after 0 t = iblk m c 0 t := by dsimp only [dats]
theorem after_h (c : Dev nD) (t : Fin cfg0.N) : (dats m 0 c).after 1 t = iblk m c 1 t := by dsimp only [dats]
theorem after_wx (c : Dev nD) (t : Fin cfg0.N) : (dats m 0 c).after 2 t = iblk m c 2 t := by dsimp only [dats]
theorem after_wh (c : Dev nD) (t : Fin cfg0.N) : (dats m 0 c).after 3 t = iblk m c 3 t := by dsimp only [dats]
theorem after_b (c : Dev nD) (t : Fin cfg0.N) : (dats m 0 c).after 4 t = iblk m c 4 t := by dsimp only [dats]
theorem after_hidden (c : Dev nD) (t : Fin cfg0.N) : (dats m 0 c).after 5 t
    = hiddenOut (iblk m c 0 t) (iblk m c 1 t) (iblk m c 2 t) (iblk m c 3 t) (iblk m c 4 t) := by dsimp only [dats]
theorem after_cell (c : Dev nD) (t : Fin cfg0.N) : (dats m 0 c).after 6 t
    = cellOut (iblk m c 0 t) (iblk m c 1 t) (iblk m c 2 t) (iblk m c 3 t) (iblk m c 4 t) := by dsimp only [dats]

/-! ## Each input's staging buffer holds its block when the body runs

Fetched at this point or not: a window not fetched here has not moved since the point that fetched
it, and the body leaves every input buffer as it found it. -/

theorem before_x (c : Dev nD) (t : Fin cfg0.N) (d) : (dats m 0 c).before 0 t d = iblk m c 0 t :=
  ((dats m 0 c).before_in_eq_fetched 0 rfl (fun _ => rfl) (fun _ _ _ => rfl)
    (fun t => by rw [after_x]; unfold Dat.blockOf iblk; rw [A_eq]; try rfl) t d).trans
    (by unfold Dat.fetched Dat.blockOf iblk; rw [A_eq]; try rfl)
theorem before_h (c : Dev nD) (t : Fin cfg0.N) (d) : (dats m 0 c).before 1 t d = iblk m c 1 t :=
  ((dats m 0 c).before_in_eq_fetched 1 rfl (fun _ => rfl) (fun _ _ _ => rfl)
    (fun t => by rw [after_h]; unfold Dat.blockOf iblk; rw [A_eq]; try rfl) t d).trans
    (by unfold Dat.fetched Dat.blockOf iblk; rw [A_eq]; try rfl)
theorem before_wx (c : Dev nD) (t : Fin cfg0.N) (d) : (dats m 0 c).before 2 t d = iblk m c 2 t :=
  ((dats m 0 c).before_in_eq_fetched 2 rfl (fun _ => rfl) (fun _ _ _ => rfl)
    (fun t => by rw [after_wx]; unfold Dat.blockOf iblk; rw [A_eq]; try rfl) t d).trans
    (by unfold Dat.fetched Dat.blockOf iblk; rw [A_eq]; try rfl)
theorem before_wh (c : Dev nD) (t : Fin cfg0.N) (d) : (dats m 0 c).before 3 t d = iblk m c 3 t :=
  ((dats m 0 c).before_in_eq_fetched 3 rfl (fun _ => rfl) (fun _ _ _ => rfl)
    (fun t => by rw [after_wh]; unfold Dat.blockOf iblk; rw [A_eq]; try rfl) t d).trans
    (by unfold Dat.fetched Dat.blockOf iblk; rw [A_eq]; try rfl)
theorem before_b (c : Dev nD) (t : Fin cfg0.N) (d) : (dats m 0 c).before 4 t d = iblk m c 4 t :=
  ((dats m 0 c).before_in_eq_fetched 4 rfl (fun _ => rfl) (fun _ _ _ => rfl)
    (fun t => by rw [after_b]; unfold Dat.blockOf iblk; rw [A_eq]; try rfl) t d).trans
    (by unfold Dat.fetched Dat.blockOf iblk; rw [A_eq]; try rfl)

/-! ## The body at a generic point -/

/-- What the pipeline hands the body at point `t`: the invariant, the core's debt (none), and the
    seven current staging buffers. -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At any point the five input buffers hold their blocks, so the body's triple applies; the
    invariant and the debt pass through untouched. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_x, before_h, before_wx, before_wh, before_b]
  rw [show (dats m 0 c).Φ t.succ = (dats m 0 c).Φ t.castSucc from rfl,
    show (dats m 0 c).owesAt () t.succ = (dats m 0 c).owesAt () t.castSucc from rfl,
    after_x, after_h, after_wx, after_wh, after_b, after_hidden, after_cell]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) :
    BodyObligation (dats (F := F) m 0 c) (defs₀ (F := F)) Variants.none () Set.univ := fun t => by
  rw [bigSep_W0, bigSep_W0]
  exact body_at_point m c t

/-! ## The run -/

set_option backward.isDefEq.respectTransparency.types false in
/-- From any memory with zero counters, every weakly fair execution of the main function terminates
    without fault; each window's array ends at what the write-backs made of it and every other
    unscoped buffer at what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := main_reaches_region m Variants.none) (hA := A_eq m)
    (hΦ := fun _ _ => rfl)

/-! ## The arguments end as launched -/

variable {m ρ}

/-- x and h are staged as input windows: an input window's array is never written. -/
theorem end_arg0 {r : PUnit × MemSt nD τ sig (Elt F)} (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans (V_arg0 m c))
theorem end_arg1 {r : PUnit × MemSt nD τ sig (Elt F)} (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans (V_arg1 m c))

/-- The other thirteen arguments are no window's array: they bypass the region. -/
theorem end_arg2 {r : PUnit × MemSt nD τ sig (Elt F)} (h : Pipeline.FramePost cfgs (dats m) 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_arg2 m c)
theorem end_arg3 {r : PUnit × MemSt nD τ sig (Elt F)} (h : Pipeline.FramePost cfgs (dats m) 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_arg3 m c)
theorem end_arg4 {r : PUnit × MemSt nD τ sig (Elt F)} (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_arg4 m c)
theorem end_arg5 {r : PUnit × MemSt nD τ sig (Elt F)} (h : Pipeline.FramePost cfgs (dats m) 0 (V m) r) (c : Dev nD) :
    r.2.mem ((c.tc : Thread nD τ).loc main_arg5) = m ((c.tc : Thread nD τ).loc main_arg5) :=
  ((h c).2 main_arg5 (Pipeline.mem_restRefs_of main_arg5 (by decide) (by decide))).trans (V_arg5 m c)
theorem end_arg6 {r : PUnit × MemSt nD τ sig (Elt F)} (h : Pipeline.FramePost cfgs (dats m) 0 (V m) r) (c : Dev nD) :
    r.2.mem ((c.tc : Thread nD τ).loc main_arg6) = m ((c.tc : Thread nD τ).loc main_arg6) :=
  ((h c).2 main_arg6 (Pipeline.mem_restRefs_of main_arg6 (by decide) (by decide))).trans (V_arg6 m c)
theorem end_arg7 {r : PUnit × MemSt nD τ sig (Elt F)} (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_arg7 m c)
theorem end_arg8 {r : PUnit × MemSt nD τ sig (Elt F)} (h : Pipeline.FramePost cfgs (dats m) 0 (V m) r) (c : Dev nD) :
    r.2.mem ((c.tc : Thread nD τ).loc main_arg8) = m ((c.tc : Thread nD τ).loc main_arg8) :=
  ((h c).2 main_arg8 (Pipeline.mem_restRefs_of main_arg8 (by decide) (by decide))).trans (V_arg8 m c)
theorem end_arg9 {r : PUnit × MemSt nD τ sig (Elt F)} (h : Pipeline.FramePost cfgs (dats m) 0 (V m) r) (c : Dev nD) :
    r.2.mem ((c.tc : Thread nD τ).loc main_arg9) = m ((c.tc : Thread nD τ).loc main_arg9) :=
  ((h c).2 main_arg9 (Pipeline.mem_restRefs_of main_arg9 (by decide) (by decide))).trans (V_arg9 m c)
theorem end_arg10 {r : PUnit × MemSt nD τ sig (Elt F)} (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_arg10 m c)
theorem end_arg11 {r : PUnit × MemSt nD τ sig (Elt F)} (h : Pipeline.FramePost cfgs (dats m) 0 (V m) r) (c : Dev nD) :
    r.2.mem ((c.tc : Thread nD τ).loc main_arg11) = m ((c.tc : Thread nD τ).loc main_arg11) :=
  ((h c).2 main_arg11 (Pipeline.mem_restRefs_of main_arg11 (by decide) (by decide))).trans (V_arg11 m c)
theorem end_arg12 {r : PUnit × MemSt nD τ sig (Elt F)} (h : Pipeline.FramePost cfgs (dats m) 0 (V m) r) (c : Dev nD) :
    r.2.mem ((c.tc : Thread nD τ).loc main_arg12) = m ((c.tc : Thread nD τ).loc main_arg12) :=
  ((h c).2 main_arg12 (Pipeline.mem_restRefs_of main_arg12 (by decide) (by decide))).trans (V_arg12 m c)
theorem end_arg13 {r : PUnit × MemSt nD τ sig (Elt F)} (h : Pipeline.FramePost cfgs (dats m) 0 (V m) r) (c : Dev nD) :
    r.2.mem ((c.tc : Thread nD τ).loc main_arg13) = m ((c.tc : Thread nD τ).loc main_arg13) :=
  ((h c).2 main_arg13 (Pipeline.mem_restRefs_of main_arg13 (by decide) (by decide))).trans (V_arg13 m c)
theorem end_arg14 {r : PUnit × MemSt nD τ sig (Elt F)} (h : Pipeline.FramePost cfgs (dats m) 0 (V m) r) (c : Dev nD) :
    r.2.mem ((c.tc : Thread nD τ).loc main_arg14) = m ((c.tc : Thread nD τ).loc main_arg14) :=
  ((h c).2 main_arg14 (Pipeline.mem_restRefs_of main_arg14 (by decide) (by decide))).trans (V_arg14 m c)

variable (m ρ)

/-- The frame: the program runs to the end, faults nowhere, and leaves its fifteen arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨end_arg0 h c, end_arg1 h c, end_arg2 h c, end_arg3 h c, end_arg4 h c,
    end_arg5 h c, end_arg6 h c, end_arg7 h c, end_arg8 h c, end_arg9 h c, end_arg10 h c, end_arg11 h c,
    end_arg12 h c, end_arg13 h c, end_arg14 h c⟩) (run_main m ρ)

end Cert.KernelIdeal.Run

end
-- ==== Proof.Spec.lean ====
/-
  The function both programs compute, over the extended reals, index by index.

  For a batch row r and a hidden unit j, a gate with input weights W, hidden weights U and bias b has
  the logit
      z W U b (r, j) = (sum over k of x(r,k) * W(k,j)) + b(j) + (sum over k of h(r,k) * U(k,j)).
  With the input gate  i = logistic(z Wxi Whi bxi),  the candidate  g = tanh(z Wxc Whc bxc)  and the
  output gate  o = logistic(z Wxo Who bxo),  the new cell state is  c' = i * g  and the new hidden
  state is  h' = o * tanh(c').  (The forget gate and the previous cell state do not enter.)

  The only law used to join the two programs' arrangements of a logit is that addition of extended
  reals is commutative and associative: (a + c) + b = (a + b) + c. It holds at the infinities too.
-/
import Idealize.ShloMosaic.PureOps.Ideal
import Idealize.ShloMosaic.PureOps.IdealRules
import Idealize.ShloMosaic.Lib.ValueIdx

noncomputable section

namespace Cert.LstmSpec

open Idealize.ShloMosaic Idealize.ShloMosaic.ValueIdx

/-- Batch-by-feature arrays, weight matrices and bias vectors, as functions of their indices. -/
abbrev Act := (⟨2, ![32768, 512]⟩ : Shape).Idx → EReal
abbrev Mat := (⟨2, ![512, 512]⟩ : Shape).Idx → EReal
abbrev Bias := (⟨1, ![512]⟩ : Shape).Idx → EReal

/-- One gate's logit at batch row `r` and hidden unit `j`. -/
def logit (x h : Act) (W U : Mat) (b : Bias) (r : Fin 32768) (j : Fin 512) : EReal :=
  (∑ k : Fin 512, x (ix2 r k) * W (ix2 k j)) + b (ix1 j) + ∑ k : Fin 512, h (ix2 r k) * U (ix2 k j)

/-- The new cell state: input gate times candidate. -/
def cellAt (x h : Act) (Wxi Whi Wxc Whc : Mat) (bxi bxc : Bias) (r : Fin 32768) (j : Fin 512) : EReal :=
  Ideal.logistic (logit x h Wxi Whi bxi r j) * Ideal.tanh (logit x h Wxc Whc bxc r j)

/-- The new hidden state: output gate times tanh of the new cell state. -/
def hiddenAt (x h : Act) (Wxi Whi Wxc Whc Wxo Who : Mat) (bxi bxc bxo : Bias) (r : Fin 32768) (j : Fin 512) : EReal :=
  Ideal.logistic (logit x h Wxo Who bxo r j) * Ideal.tanh (cellAt x h Wxi Whi Wxc Whc bxi bxc r j)

/-- The two results as whole arrays. -/
def cellArr (x h : Act) (Wxi Whi Wxc Whc : Mat) (bxi bxc : Bias) : Act :=
  fun i => cellAt x h Wxi Whi Wxc Whc bxi bxc (i 0) (i 1)
def hiddenArr (x h : Act) (Wxi Whi Wxc Whc Wxo Who : Mat) (bxi bxc bxo : Bias) : Act :=
  fun i => hiddenAt x h Wxi Whi Wxc Whc Wxo Who bxi bxc bxo (i 0) (i 1)

/-- The law joining the two arrangements of a logit: the kernel adds the two products first and the
    bias last, the reference adds the bias between them. -/
theorem add_bias_last (a b c : EReal) : a + c + b = a + b + c := add_right_comm a c b

/-! ## The float literal the reference spells -/

/-- The f32 word 0x3F800000 (sign 0, biased exponent 127, mantissa 0) denotes the number 1. -/
theorem one_word : Ideal.ofBits .f32 0x3F800000#32 = 1 := IdealRules.sign_bit.ideal_onePat .f32

/-- The sigmoid spelled out as 1 / (1 + e^(-z)), with both ones written as the f32 word for 1 and the
    quotient taken by the extended reals' division, is the logistic function: that is its definition. -/
theorem sigmoid_spelled (z : EReal) :
    Ideal.div (Ideal.ofBits .f32 0x3F800000#32) (Ideal.ofBits .f32 0x3F800000#32 + Ideal.exp (-z)) = Ideal.logistic z := by
  rw [one_word]; rfl

end Cert.LstmSpec

end
-- ==== Proof.PayloadAt.lean ====
/-
  The kernel body's arithmetic, read at one entry, over the extended reals.

  Write X, H for the two 1024 x 512 input blocks, WX, WH for the two 512 x 1536 weight matrices and
  B for the 1 x 1536 bias row. The body forms the 1024 x 1536 matrix
      Z(p, j) = (sum over k of X(p,k) * WX(k,j)) + (sum over k of H(p,k) * WH(k,j)) + B(0,j)
  (each matrix product accumulates into zero, so it is just the sum; narrowing to bf16 changes nothing
  over the extended reals), and cuts it into three panels of 512 columns. At row p and column q of a
  panel,
      cell(p,q)   = logistic(Z(p, q)) * tanh(Z(p, 512 + q))
      hidden(p,q) = logistic(Z(p, 1024 + q)) * tanh(cell(p,q)).
-/
import proofs.«101878_j76647986364859_2_alg».proof.Proof.Gen.KernelIdeal.Skeleton
import proofs.«101878_j76647986364859_2_alg».proof.Proof.Spec
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen
open Idealize.ShloMosaic Idealize.ShloMosaic.ValueIdx

/-! ## A matrix product into a zero accumulator, at an entry

The product of a 1024 x 512 by a 512 x 1536 matrix contracts the left factor's second axis against the
right factor's first. Entry (p, j) of the result reads the left factor along row p and the right along
column j. -/

theorem left_row (i : S1024x1536.Idx) (q : dot_S1024x512_S512x1536_S1024x1536_1_0_0_1_n_n.contr.Idx) :
    (dot_S1024x512_S512x1536_S1024x1536_1_0_0_1_n_n.lhsIdx i q 0).val = (i 0).val := by
  unfold DotDims.lhsIdx
  rw [dif_neg (show ¬(0 : Fin S1024x512.rank) ∈ dot_S1024x512_S512x1536_S1024x1536_1_0_0_1_n_n.lhsBatch by decide),
    dif_pos (show (0 : Fin S1024x512.rank) ∈ dot_S1024x512_S512x1536_S1024x1536_1_0_0_1_n_n.lhsNonContracting by decide)]
  rfl
theorem left_col (i : S1024x1536.Idx) (q : dot_S1024x512_S512x1536_S1024x1536_1_0_0_1_n_n.contr.Idx) :
    (dot_S1024x512_S512x1536_S1024x1536_1_0_0_1_n_n.lhsIdx i q 1).val = (q ⟨0, by decide⟩).val :=
  dot_S1024x512_S512x1536_S1024x1536_1_0_0_1_n_n.lhsIdx_val_of_single rfl i q
theorem right_row (i : S1024x1536.Idx) (q : dot_S1024x512_S512x1536_S1024x1536_1_0_0_1_n_n.contr.Idx) :
    (dot_S1024x512_S512x1536_S1024x1536_1_0_0_1_n_n.rhsIdx i q 0).val = (q ⟨0, by decide⟩).val :=
  dot_S1024x512_S512x1536_S1024x1536_1_0_0_1_n_n.rhsIdx_val_of_single rfl i q
theorem right_col (i : S1024x1536.Idx) (q : dot_S1024x512_S512x1536_S1024x1536_1_0_0_1_n_n.contr.Idx) :
    (dot_S1024x512_S512x1536_S1024x1536_1_0_0_1_n_n.rhsIdx i q 1).val = (i 1).val := by
  unfold DotDims.rhsIdx
  rw [dif_neg (show ¬(1 : Fin S512x1536.rank) ∈ dot_S1024x512_S512x1536_S1024x1536_1_0_0_1_n_n.rhsBatch by decide),
    dif_pos (show (1 : Fin S512x1536.rank) ∈ dot_S1024x512_S512x1536_S1024x1536_1_0_0_1_n_n.rhsNonContracting by decide)]
  rfl

/-- Entry (p, j) of the product accumulated into zero is the sum over k of l(p,k) * r(k,j). -/
theorem matmul_at (l : FVec Ideal S1024x512 .bf16) (r : FVec Ideal S512x1536 .bf16) (p : Fin 1024) (j : Fin 1536) :
    matmul dot_S1024x512_S512x1536_S1024x1536_1_0_0_1_n_n none l r (constant S1024x1536 .f32 0x00000000#32) (ix2 p j)
      = ∑ k : Fin 512, l (ix2 p k) * r (ix2 k j) := by
  refine (Ideal.matmul_constant_zero_apply dot_S1024x512_S512x1536_S1024x1536_1_0_0_1_n_n none l r (ix2 p j)).trans ?_
  rw [← Equiv.sum_comp (contrEquiv1 dot_S1024x512_S512x1536_S1024x1536_1_0_0_1_n_n 512 rfl rfl).symm]
  refine Finset.sum_congr rfl fun k _ => ?_
  have hk := contrEquiv1_symm_val dot_S1024x512_S512x1536_S1024x1536_1_0_0_1_n_n 512 rfl rfl k
  have el : dot_S1024x512_S512x1536_S1024x1536_1_0_0_1_n_n.lhsIdx (ix2 p j) ((contrEquiv1 dot_S1024x512_S512x1536_S1024x1536_1_0_0_1_n_n 512 rfl rfl).symm k) = ix2 p k :=
    funext fun a => Fin.ext (by
      match a with
      | ⟨0, _⟩ => exact left_row _ _
      | ⟨1, _⟩ => exact (left_col _ _).trans hk)
  have er : dot_S1024x512_S512x1536_S1024x1536_1_0_0_1_n_n.rhsIdx (ix2 p j) ((contrEquiv1 dot_S1024x512_S512x1536_S1024x1536_1_0_0_1_n_n 512 rfl rfl).symm k) = ix2 k j :=
    funext fun a => Fin.ext (by
      match a with
      | ⟨0, _⟩ => exact (right_row _ _).trans hk
      | ⟨1, _⟩ => exact right_col _ _)
  rw [el, er]

/-! ## The bias row spread down the rows, and a panel of columns -/

/-- The 1 x 1536 row broadcast to 1024 x 1536 reads, at (p, j), the row's entry j. -/
theorem bias_row_at (v : S1x1536.Idx → EReal) (h : S1x1536.Broadcasts S1024x1536) (p : Fin 1024) (j : Fin 1536) :
    broadcastTo S1024x1536 v h (ix2 p j) = v (ix2 0 j) :=
  broadcastTo_apply v h (ix2 p j) (ix2 0 j) (fun a => match a with
    | ⟨0, _⟩ => by show 0 = if (1 : Nat) = 1 then 0 else p.val; rw [if_pos rfl]
    | ⟨1, _⟩ => by show j.val = if (1536 : Nat) = 1 then 0 else j.val; rw [if_neg (by decide)])

/-- The panel of 512 columns starting at column `o` reads, at (p, q), the matrix at (p, o + q). -/
theorem panel_at (o : Nat) (z : S1024x1536.Idx → EReal) (h : S1024x1536.Slices ![0, o] S1024x512)
    (p : Fin 1024) (q : Fin 512) (hq : o + q.val < 1536) :
    extractStridedSlice S1024x512 ![0, o] z h (ix2 p q) = z (ix2 p ⟨o + q.val, hq⟩) :=
  extractStridedSlice_apply _ z h (ix2 p q) (ix2 p ⟨o + q.val, hq⟩) (fun a => match a with
    | ⟨0, _⟩ => by show p.val = 0 + p.val; omega
    | ⟨1, _⟩ => rfl)

/-- Column q of each of the three panels, as a column of the 1536-wide matrix. -/
def col0 (q : Fin 512) : Fin 1536 := ⟨0 + q.val, by have := q.isLt; omega⟩
def col1 (q : Fin 512) : Fin 1536 := ⟨512 + q.val, by have := q.isLt; omega⟩
def col2 (q : Fin 512) : Fin 1536 := ⟨1024 + q.val, by have := q.isLt; omega⟩

/-! ## The three payloads -/

/-- One entry of the 1024 x 1536 logit matrix, from the five input blocks. -/
def blockLogit (x h : S1024x512.Idx → EReal) (wx wh : S512x1536.Idx → EReal) (b : S1x1536.Idx → EReal)
    (p : Fin 1024) (j : Fin 1536) : EReal :=
  (∑ k : Fin 512, x (ix2 p k) * wx (ix2 k j)) + (∑ k : Fin 512, h (ix2 p k) * wh (ix2 k j)) + b (ix2 0 j)

theorem logits_at (x h : Vec Ideal S1024x512 .f32) (wx wh : Vec Ideal S512x1536 .bf16) (b : Vec Ideal S1x1536 .f32)
    (p : Fin 1024) (j : Fin 1536) :
    k0_pay1 (F := Ideal) x h wx wh b (ix2 p j) = blockLogit x h wx wh b p j := by
  unfold k0_pay1
  simp only [shapeCast_self, addf, Ideal.addf_def]
  rw [matmul_at, matmul_at, bias_row_at]
  rfl

/-- The cell-state payload at (p, q). -/
theorem cell_at (x h : Vec Ideal S1024x512 .f32) (wx wh : Vec Ideal S512x1536 .bf16) (b : Vec Ideal S1x1536 .f32)
    (p : Fin 1024) (q : Fin 512) :
    k0_pay2 (F := Ideal) x h wx wh b (ix2 p q)
      = Ideal.logistic (blockLogit x h wx wh b p (col0 q)) * Ideal.tanh (blockLogit x h wx wh b p (col1 q)) := by
  have hq := q.isLt
  unfold k0_pay2
  simp only [mulf, logistic, tanh, Ideal.mulf_def, Ideal.logistic_def, Ideal.tanh_def]
  rw [panel_at 0 _ _ p q (by omega), panel_at 512 _ _ p q (by omega), logits_at, logits_at]
  rfl

/-- The hidden-state payload at (p, q). -/
theorem hidden_at (x h : Vec Ideal S1024x512 .f32) (wx wh : Vec Ideal S512x1536 .bf16) (b : Vec Ideal S1x1536 .f32)
    (p : Fin 1024) (q : Fin 512) :
    k0_pay3 (F := Ideal) x h wx wh b (ix2 p q)
      = Ideal.logistic (blockLogit x h wx wh b p (col2 q))
        * Ideal.tanh (Ideal.logistic (blockLogit x h wx wh b p (col0 q)) * Ideal.tanh (blockLogit x h wx wh b p (col1 q))) := by
  have hq := q.isLt
  unfold k0_pay3
  simp only [mulf, logistic, tanh, Ideal.mulf_def, Ideal.logistic_def, Ideal.tanh_def]
  rw [panel_at 1024 _ _ p q (by omega), logits_at, cell_at]
  rfl

end Cert.KernelIdeal.PayloadAt

end
-- ==== Proof.Blocks.lean ====
/-
  The five input blocks at a grid point, read at coordinates.

  The grid has 32 points. At point t the x window and the h window stage rows [1024 t, 1024 t + 1024)
  of their arrays, all 512 columns: row p of the block is row 1024 t + p of the array. The two weight
  windows and the bias window stage their whole arrays at every point. (A block's coordinate along an
  axis is always  block index * block size + coordinate inside the block.)
-/
import proofs.«101878_j76647986364859_2_alg».proof.Proof.IdealEntry
import proofs.«101878_j76647986364859_2_alg».proof.Proof.PayloadAt

set_option maxRecDepth 16384

noncomputable section

namespace Cert.KernelIdeal.Blocks

open Cert.KernelIdeal Cert.KernelIdeal.Gen Cert.KernelIdeal.Entry
open Idealize.ShloMosaic Idealize.ShloMosaic.TcCoe Idealize.ShloMosaic.ValueIdx Idealize.SL.Sem

/-- The printed index maps, decided over the 32 grid points: the x, h and the two output windows take
    block row t and block column 0 at point t; the weight and bias windows take block (0, 0) always. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- A grid point is one of 32. -/
theorem point_lt (t : Fin cfg0.N) : t.val < 32 := lt_of_lt_of_eq t.isLt N_0

/-- Row p of the block at point t, as a row of the 32768-row array. -/
def row (t : Fin cfg0.N) (p : Fin 1024) : Fin 32768 :=
  ⟨t.val * 1024 + p.val, by have := point_lt t; have := p.isLt; omega⟩

variable (m : (ℓ : Loc nD τ sig) → Buf (Elt Ideal) ℓ)

/-- The x block at point t is rows 1024 t .. of x as launched. -/
theorem x_blk (c : Dev nD) (t : Fin cfg0.N) (p : Fin 1024) (k : Fin 512) :
    iblk m c 0 t (ix2 p k) = m ((c : Thread nD τ).loc main_arg0) (ix2 (row t p) k) := by
  obtain ⟨e0, e1, -⟩ := index_facts t
  show V m c main_arg0 (((cfg0.win 0).blk t).view.emb (ix2 p k)) = _
  rw [V_arg0]
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 512 + 1 * k.val = k.val; omega

/-- The h block at point t is rows 1024 t .. of h as launched. -/
theorem h_blk (c : Dev nD) (t : Fin cfg0.N) (p : Fin 1024) (k : Fin 512) :
    iblk m c 1 t (ix2 p k) = m ((c : Thread nD τ).loc main_arg1) (ix2 (row t p) k) := by
  obtain ⟨-, -, e0, e1, -⟩ := index_facts t
  show V m c main_arg1 (((cfg0.win 1).blk t).view.emb (ix2 p k)) = _
  rw [V_arg1]
  refine congrArg _ (funext fun a => Fin.ext ?_)
  match a with
  | ⟨0, _⟩ => show win0_1.index t (0 : Fin 2) * 1024 + 1 * p.val = t.val * 1024 + p.val; omega
  | ⟨1, _⟩ => show win0_1.index t (1 : Fin 2) * 512 + 1 * k.val = k.val; omega

/-- The input-path weight block is the whole array the host operations made. -/
theorem wx_blk (c : Dev nD) (t : Fin cfg0.N) (k : Fin 512) (j : Fin 1536) :
    iblk m c 2 t (ix2 k j) = (V m c main_v1 : S512x1536.Idx → EReal) (ix2 k j) := by
  obtain ⟨-, -, -, -, e0, e1, -⟩ := index_facts t
  show V m c main_v1 (((cfg0.win 2).blk t).view.emb (ix2 k j)) = _
  refine congrArg _ (funext fun a => Fin.ext ?_)
  match a with
  | ⟨0, _⟩ => show win0_2.index t (0 : Fin 2) * 512 + 1 * k.val = k.val; omega
  | ⟨1, _⟩ => show win0_2.index t (1 : Fin 2) * 1536 + 1 * j.val = j.val; omega

/-- The hidden-path weight block is the whole array. -/
theorem wh_blk (c : Dev nD) (t : Fin cfg0.N) (k : Fin 512) (j : Fin 1536) :
    iblk m c 3 t (ix2 k j) = (V m c main_v3 : S512x1536.Idx → EReal) (ix2 k j) := by
  obtain ⟨-, -, -, -, -, -, e0, e1, -⟩ := index_facts t
  show V m c main_v3 (((cfg0.win 3).blk t).view.emb (ix2 k j)) = _
  refine congrArg _ (funext fun a => Fin.ext ?_)
  match a with
  | ⟨0, _⟩ => show win0_3.index t (0 : Fin 2) * 512 + 1 * k.val = k.val; omega
  | ⟨1, _⟩ => show win0_3.index t (1 : Fin 2) * 1536 + 1 * j.val = j.val; omega

/-- The bias block is the whole one-row array. -/
theorem b_blk (c : Dev nD) (t : Fin cfg0.N) (j : Fin 1536) :
    iblk m c 4 t (ix2 0 j) = (V m c main_v5 : S1x1536.Idx → EReal) (ix2 0 j) := by
  obtain ⟨-, -, -, -, -, -, -, -, e0, e1, -⟩ := index_facts t
  show V m c main_v5 (((cfg0.win 4).blk t).view.emb (ix2 0 j)) = _
  refine congrArg _ (funext fun a => Fin.ext ?_)
  match a with
  | ⟨0, _⟩ => show win0_4.index t (0 : Fin 2) * 1 + 1 * 0 = 0; omega
  | ⟨1, _⟩ => show win0_4.index t (1 : Fin 2) * 1536 + 1 * j.val = j.val; omega

end Cert.KernelIdeal.Blocks

end
-- ==== Proof.LibNary3.lean ====
/-
  A host operation over a family of THREE operand buffers, read at its result.

  The library's `nary` takes its operands as a family `xs : Fin n → Ref` and its result is the
  operation's function applied to `fun k => (contents of xs k)`. Under that binder the buffer `xs k`
  is not a literal, so when the operands were themselves written by earlier operations nothing can
  say what they hold. For a literal family `![x, a, b]` the family of contents is the three contents
  listed one by one, each at its own literal buffer; stated that way, the contents of each operand can
  go on being computed. (The library states the same for four operands.)
-/
import Idealize.ShloMosaic.Lib.StableHlo.Run

namespace Cert.Lib

open Idealize.ShloMosaic Idealize.ShloMosaic.StableHlo

variable {τ : Topo} {sig : RefSig} {Val : EltTy → Type}

/-- The result of an operation over the literal family `![x, a, b]` is its function of the three
    operands' contents, each read at its own buffer: the family `fun k => F (![x, a, b] k)` is
    `Fin.cons (F x) (Fin.cons (F a) (Fin.cons (F b) _))`, entry by entry. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

/-- What one buffer holds after a list of host operations, computed operation by operation: at an
    operation's own result buffer its function of the operands' contents, at any other buffer what
    was there before (the two buffers distinct by evaluation); a three-operand family read operand by
    operand. -/
macro "host_results3" : tactic =>
  `(tactic| (simp only [after_cons, after_nil]
             repeat (first
               | rw [nary3_result] | rw [nullary_result] | rw [unary_result] | rw [binary_result]
               | rw [reshape_result] | rw [nary_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

end Cert.Lib
-- ==== Proof.EntryAt.lean ====
/-
  What the three host-made window arrays hold when the region is entered, entry by entry.

  The input-path weight array is the three 512 x 512 matrices Wxi, Wxc, Wxo laid side by side along
  the column axis (then narrowed to bf16, which changes nothing over the extended reals): its column
  q is column q of Wxi, its column 512 + q is column q of Wxc, its column 1024 + q is column q of Wxo.
  The hidden-path weight array is the same with Whi, Whc, Who. The bias row is bxi, bxc, bxo laid end
  to end and reshaped to one row: its entry (0, q) is bxi(q), (0, 512 + q) is bxc(q), (0, 1024 + q) is
  bxo(q). The three offsets are those of the three column panels the kernel cuts its logits into.
-/
import proofs.«101878_j76647986364859_2_alg».proof.Proof.IdealEntry
import proofs.«101878_j76647986364859_2_alg».proof.Proof.PayloadAt
import proofs.«101878_j76647986364859_2_alg».proof.Proof.LibNary3

noncomputable section

namespace Cert.KernelIdeal.EntryAt

open Cert.KernelIdeal Cert.KernelIdeal.Gen Cert.KernelIdeal.Entry Cert.KernelIdeal.PayloadAt Cert.Lib
open Idealize.ShloMosaic Idealize.ShloMosaic.TcCoe Idealize.ShloMosaic.ValueIdx Idealize.SL.Sem
open Idealize.ShloMosaic.StableHlo

/-! ## Three pieces laid along an axis, read at an index -/

variable {α : Type}

/-- Three 512 x 512 matrices side by side: column q of the first panel is column q of the first matrix, -/
theorem across_first (A B C : S512x512.Idx → α) (h : Shape.Concatenates [S512x512, S512x512, S512x512] S512x1536 1)
    (k q : Fin 512) :
    concatenate S512x1536 1 [⟨S512x512, A⟩, ⟨S512x512, B⟩, ⟨S512x512, C⟩] h (ix2 k (col0 q)) = A (ix2 k q) :=
  concatenate_apply_piece (1 : Fin S512x1536.rank) [⟨S512x512, A⟩, ⟨S512x512, B⟩, ⟨S512x512, C⟩] h (ix2 k (col0 q))
    0 (by simp) S512x512 A rfl rfl 0 (by rfl) (ix2 k q)
    (fun b hb => match b with
      | ⟨0, _⟩ => rfl
      | ⟨1, _⟩ => absurd rfl hb)
    (by rfl)
/-- of the second panel, of the second matrix, -/
theorem across_second (A B C : S512x512.Idx → α) (h : Shape.Concatenates [S512x512, S512x512, S512x512] S512x1536 1)
    (k q : Fin 512) :
    concatenate S512x1536 1 [⟨S512x512, A⟩, ⟨S512x512, B⟩, ⟨S512x512, C⟩] h (ix2 k (col1 q)) = B (ix2 k q) :=
  concatenate_apply_piece (1 : Fin S512x1536.rank) [⟨S512x512, A⟩, ⟨S512x512, B⟩, ⟨S512x512, C⟩] h (ix2 k (col1 q))
    1 (by simp) S512x512 B rfl rfl 512 (by rfl) (ix2 k q)
    (fun b hb => match b with
      | ⟨0, _⟩ => rfl
      | ⟨1, _⟩ => absurd rfl hb)
    (by rfl)
/-- of the third panel, of the third matrix. -/
theorem across_third (A B C : S512x512.Idx → α) (h : Shape.Concatenates [S512x512, S512x512, S512x512] S512x1536 1)
    (k q : Fin 512) :
    concatenate S512x1536 1 [⟨S512x512, A⟩, ⟨S512x512, B⟩, ⟨S512x512, C⟩] h (ix2 k (col2 q)) = C (ix2 k q) :=
  concatenate_apply_piece (1 : Fin S512x1536.rank) [⟨S512x512, A⟩, ⟨S512x512, B⟩, ⟨S512x512, C⟩] h (ix2 k (col2 q))
    2 (by simp) S512x512 C rfl rfl 1024 (by rfl) (ix2 k q)
    (fun b hb => match b with
      | ⟨0, _⟩ => rfl
      | ⟨1, _⟩ => absurd rfl hb)
    (by rfl)

/-- Three vectors of 512 entries end to end: entry q of each third is entry q of the matching vector. -/
theorem along_first (A B C : S512.Idx → α) (h : Shape.Concatenates [S512, S512, S512] S1536 0) (q : Fin 512) :
    concatenate S1536 0 [⟨S512, A⟩, ⟨S512, B⟩, ⟨S512, C⟩] h (ix1 (col0 q)) = A (ix1 q) :=
  concatenate_apply_piece (0 : Fin S1536.rank) [⟨S512, A⟩, ⟨S512, B⟩, ⟨S512, C⟩] h (ix1 (col0 q))
    0 (by simp) S512 A rfl rfl 0 (by rfl) (ix1 q)
    (fun b hb => match b with
      | ⟨0, _⟩ => absurd rfl hb)
    (by rfl)
theorem along_second (A B C : S512.Idx → α) (h : Shape.Concatenates [S512, S512, S512] S1536 0) (q : Fin 512) :
    concatenate S1536 0 [⟨S512, A⟩, ⟨S512, B⟩, ⟨S512, C⟩] h (ix1 (col1 q)) = B (ix1 q) :=
  concatenate_apply_piece (0 : Fin S1536.rank) [⟨S512, A⟩, ⟨S512, B⟩, ⟨S512, C⟩] h (ix1 (col1 q))
    1 (by simp) S512 B rfl rfl 512 (by rfl) (ix1 q)
    (fun b hb => match b with
      | ⟨0, _⟩ => absurd rfl hb)
    (by rfl)
theorem along_third (A B C : S512.Idx → α) (h : Shape.Concatenates [S512, S512, S512] S1536 0) (q : Fin 512) :
    concatenate S1536 0 [⟨S512, A⟩, ⟨S512, B⟩, ⟨S512, C⟩] h (ix1 (col2 q)) = C (ix1 q) :=
  concatenate_apply_piece (0 : Fin S1536.rank) [⟨S512, A⟩, ⟨S512, B⟩, ⟨S512, C⟩] h (ix1 (col2 q))
    2 (by simp) S512 C rfl rfl 1024 (by rfl) (ix1 q)
    (fun b hb => match b with
      | ⟨0, _⟩ => absurd rfl hb)
    (by rfl)

/-- A vector of 1536 entries reshaped to one row: the row's entry (0, j) is the vector's entry j. -/
theorem one_row_at (v : S1536.Idx → α) (h : S1536.ShapeCasts S1x1536) (j : Fin 1536) :
    shapeCast S1x1536 v h (ix2 0 j) = v (ix1 j) :=
  shapeCast_apply v h (ix2 0 j) (ix1 j) (by
    rw [Shape.rowMajor_val_one, Shape.rowMajor_val_two]
    show j.val = 0 * 1536 + j.val
    omega)

/-- Narrowing to bf16 is the identity over the extended reals, entry by entry. -/
theorem narrowed_at {s : Shape} (x : FVec Ideal s .f32) (h : FTy.bits .bf16 < FTy.bits .f32) (i : s.Idx) :
    truncf (F := Ideal) .bf16 x h i = x i := rfl

/-! ## The three arrays as the host operations leave them -/

variable (m : (ℓ : Loc nD τ sig) → Buf (Elt Ideal) ℓ)

/-- The input-path weights: Wxi, Wxc, Wxo side by side. -/
theorem wx_entry (c : Dev nD) : (V m c main_v1 : S512x1536.Idx → EReal)
    = truncf (F := Ideal) .bf16 (concatenate S512x1536 1 [⟨S512x512, m ((c : Thread nD τ).loc main_arg3)⟩,
        ⟨S512x512, m ((c : Thread nD τ).loc main_arg9)⟩, ⟨S512x512, m ((c : Thread nD τ).loc main_arg12)⟩] Facts₀.concatenates_S512x512_S512x512_S512x512_S512x1536_d1)
        Facts₀.bitsLt_bf16_f32 := by
  dsimp only [V, hostOps0]; host_results3; rfl

/-- The hidden-path weights: Whi, Whc, Who side by side. -/
theorem wh_entry (c : Dev nD) : (V m c main_v3 : S512x1536.Idx → EReal)
    = truncf (F := Ideal) .bf16 (concatenate S512x1536 1 [⟨S512x512, m ((c : Thread nD τ).loc main_arg5)⟩,
        ⟨S512x512, m ((c : Thread nD τ).loc main_arg11)⟩, ⟨S512x512, m ((c : Thread nD τ).loc main_arg14)⟩] Facts₀.concatenates_S512x512_S512x512_S512x512_S512x1536_d1)
        Facts₀.bitsLt_bf16_f32 := by
  dsimp only [V, hostOps0]; host_results3; rfl

/-- The bias row: bxi, bxc, bxo end to end, as one row. -/
theorem b_entry (c : Dev nD) : (V m c main_v5 : S1x1536.Idx → EReal)
    = shapeCast S1x1536 (concatenate S1536 0 [⟨S512, m ((c : Thread nD τ).loc main_arg4)⟩,
        ⟨S512, m ((c : Thread nD τ).loc main_arg10)⟩, ⟨S512, m ((c : Thread nD τ).loc main_arg13)⟩] Facts₀.concatenates_S512_S512_S512_S1536_d0)
        Facts₀.shapeCasts_S1536_S1x1536 := by
  dsimp only [V, hostOps0]; host_results3; rfl

/-! ## Read at an entry -/

theorem wx_at (c : Dev nD) (k q : Fin 512) :
    (V m c main_v1 : S512x1536.Idx → EReal) (ix2 k (col0 q)) = m ((c : Thread nD τ).loc main_arg3) (ix2 k q)
    ∧ (V m c main_v1 : S512x1536.Idx → EReal) (ix2 k (col1 q)) = m ((c : Thread nD τ).loc main_arg9) (ix2 k q)
    ∧ (V m c main_v1 : S512x1536.Idx → EReal) (ix2 k (col2 q)) = m ((c : Thread nD τ).loc main_arg12) (ix2 k q) := by
  rw [wx_entry]
  simp only [narrowed_at]
  exact ⟨across_first _ _ _ _ k q, across_second _ _ _ _ k q, across_third _ _ _ _ k q⟩

theorem wh_at (c : Dev nD) (k q : Fin 512) :
    (V m c main_v3 : S512x1536.Idx → EReal) (ix2 k (col0 q)) = m ((c : Thread nD τ).loc main_arg5) (ix2 k q)
    ∧ (V m c main_v3 : S512x1536.Idx → EReal) (ix2 k (col1 q)) = m ((c : Thread nD τ).loc main_arg11) (ix2 k q)
    ∧ (V m c main_v3 : S512x1536.Idx → EReal) (ix2 k (col2 q)) = m ((c : Thread nD τ).loc main_arg14) (ix2 k q) := by
  rw [wh_entry]
  simp only [narrowed_at]
  exact ⟨across_first _ _ _ _ k q, across_second _ _ _ _ k q, across_third _ _ _ _ k q⟩

theorem b_at (c : Dev nD) (q : Fin 512) :
    (V m c main_v5 : S1x1536.Idx → EReal) (ix2 0 (col0 q)) = m ((c : Thread nD τ).loc main_arg4) (ix1 q)
    ∧ (V m c main_v5 : S1x1536.Idx → EReal) (ix2 0 (col1 q)) = m ((c : Thread nD τ).loc main_arg10) (ix1 q)
    ∧ (V m c main_v5 : S1x1536.Idx → EReal) (ix2 0 (col2 q)) = m ((c : Thread nD τ).loc main_arg13) (ix1 q) := by
  rw [b_entry]
  exact ⟨(one_row_at _ _ _).trans (along_first _ _ _ _ q), (one_row_at _ _ _).trans (along_second _ _ _ _ q),
    (one_row_at _ _ _).trans (along_third _ _ _ _ q)⟩

end Cert.KernelIdeal.EntryAt

end
-- ==== Proof.Final.lean ====
/-
  The two output arrays after the run, as whole-array functions of the launched arguments.

  At grid point t the kernel's cell-state block has, at (p, q),
      logistic(Z(p, q)) * tanh(Z(p, 512 + q)),
  where Z is built from rows 1024 t .. of x and h, the side-by-side weight matrices and the bias row.
  Column q of the first panel of the side-by-side matrices is column q of Wxi (Whi), of the second
  panel of Wxc (Whc), of the third of Wxo (Who), and likewise for the bias. So Z(p, q), Z(p, 512 + q)
  and Z(p, 1024 + q) are the input gate's, the candidate's and the output gate's logits at batch row
  1024 t + p and unit q, up to the order of the three summands, which addition of extended reals
  does not see. Hence point t writes back rows [1024 t, 1024 t + 1024) of the specification's
  arrays; the 32 points cover all 32768 rows; and each output array ends equal to the specification.
-/
import proofs.«101878_j76647986364859_2_alg».proof.Proof.IdealRun
import proofs.«101878_j76647986364859_2_alg».proof.Proof.Blocks
import proofs.«101878_j76647986364859_2_alg».proof.Proof.EntryAt

set_option maxRecDepth 16384

noncomputable section

namespace Cert.KernelIdeal.Final

open Cert.KernelIdeal Cert.KernelIdeal.Gen Cert.KernelIdeal.Entry Cert.KernelIdeal.Body Cert.KernelIdeal.Run
open Cert.KernelIdeal.PayloadAt Cert.KernelIdeal.Blocks Cert.KernelIdeal.EntryAt Cert.LstmSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The launched arguments on a core, and the specification at them -/

abbrev argX (c : Dev nD) : Act := m ((c.tc : Thread nD τ).loc main_arg0)
abbrev argH (c : Dev nD) : Act := m ((c.tc : Thread nD τ).loc main_arg1)
abbrev wXi (c : Dev nD) : Mat := m ((c.tc : Thread nD τ).loc main_arg3)
abbrev bXi (c : Dev nD) : Bias := m ((c.tc : Thread nD τ).loc main_arg4)
abbrev wHi (c : Dev nD) : Mat := m ((c.tc : Thread nD τ).loc main_arg5)
abbrev wXc (c : Dev nD) : Mat := m ((c.tc : Thread nD τ).loc main_arg9)
abbrev bXc (c : Dev nD) : Bias := m ((c.tc : Thread nD τ).loc main_arg10)
abbrev wHc (c : Dev nD) : Mat := m ((c.tc : Thread nD τ).loc main_arg11)
abbrev wXo (c : Dev nD) : Mat := m ((c.tc : Thread nD τ).loc main_arg12)
abbrev bXo (c : Dev nD) : Bias := m ((c.tc : Thread nD τ).loc main_arg13)
abbrev wHo (c : Dev nD) : Mat := m ((c.tc : Thread nD τ).loc main_arg14)

/-- The specification's new cell state and new hidden state at the launched arguments. -/
def cellOf (c : Dev nD) : Act :=
  cellArr (argX m c) (argH m c) (wXi m c) (wHi m c) (wXc m c) (wHc m c) (bXi m c) (bXc m c)
def hiddenOf (c : Dev nD) : Act :=
  hiddenArr (argX m c) (argH m c) (wXi m c) (wHi m c) (wXc m c) (wHc m c) (wXo m c) (wHo m c) (bXi m c) (bXc m c) (bXo m c)

/-! ## The three logits of a block are the specification's -/

/-- First panel: the input gate's logit at batch row 1024 t + p. -/
theorem logit_input (c : Dev nD) (t : Fin cfg0.N) (p : Fin 1024) (q : Fin 512) :
    blockLogit (iblk m c 0 t) (iblk m c 1 t) (iblk m c 2 t) (iblk m c 3 t) (iblk m c 4 t) p (col0 q)
      = logit (argX m c) (argH m c) (wXi m c) (wHi m c) (bXi m c) (row t p) q := by
  have hx : ∀ k, (V m c main_v1 : S512x1536.Idx → EReal) (ix2 k (col0 q)) = wXi m c (ix2 k q) :=
    fun k => (wx_at m c k q).1
  have hh : ∀ k, (V m c main_v3 : S512x1536.Idx → EReal) (ix2 k (col0 q)) = wHi m c (ix2 k q) :=
    fun k => (wh_at m c k q).1
  have hb : (V m c main_v5 : S1x1536.Idx → EReal) (ix2 0 (col0 q)) = bXi m c (ix1 q) := (b_at m c q).1
  unfold blockLogit logit
  simp only [x_blk, h_blk, wx_blk, wh_blk, b_blk, hx, hh, hb]
  exact add_bias_last _ _ _

/-- Second panel: the candidate's logit. -/
theorem logit_candidate (c : Dev nD) (t : Fin cfg0.N) (p : Fin 1024) (q : Fin 512) :
    blockLogit (iblk m c 0 t) (iblk m c 1 t) (iblk m c 2 t) (iblk m c 3 t) (iblk m c 4 t) p (col1 q)
      = logit (argX m c) (argH m c) (wXc m c) (wHc m c) (bXc m c) (row t p) q := by
  have hx : ∀ k, (V m c main_v1 : S512x1536.Idx → EReal) (ix2 k (col1 q)) = wXc m c (ix2 k q) :=
    fun k => (wx_at m c k q).2.1
  have hh : ∀ k, (V m c main_v3 : S512x1536.Idx → EReal) (ix2 k (col1 q)) = wHc m c (ix2 k q) :=
    fun k => (wh_at m c k q).2.1
  have hb : (V m c main_v5 : S1x1536.Idx → EReal) (ix2 0 (col1 q)) = bXc m c (ix1 q) := (b_at m c q).2.1
  unfold blockLogit logit
  simp only [x_blk, h_blk, wx_blk, wh_blk, b_blk, hx, hh, hb]
  exact add_bias_last _ _ _

/-- Third panel: the output gate's logit. -/
theorem logit_output (c : Dev nD) (t : Fin cfg0.N) (p : Fin 1024) (q : Fin 512) :
    blockLogit (iblk m c 0 t) (iblk m c 1 t) (iblk m c 2 t) (iblk m c 3 t) (iblk m c 4 t) p (col2 q)
      = logit (argX m c) (argH m c) (wXo m c) (wHo m c) (bXo m c) (row t p) q := by
  have hx : ∀ k, (V m c main_v1 : S512x1536.Idx → EReal) (ix2 k (col2 q)) = wXo m c (ix2 k q) :=
    fun k => (wx_at m c k q).2.2
  have hh : ∀ k, (V m c main_v3 : S512x1536.Idx → EReal) (ix2 k (col2 q)) = wHo m c (ix2 k q) :=
    fun k => (wh_at m c k q).2.2
  have hb : (V m c main_v5 : S1x1536.Idx → EReal) (ix2 0 (col2 q)) = bXo m c (ix1 q) := (b_at m c q).2.2
  unfold blockLogit logit
  simp only [x_blk, h_blk, wx_blk, wh_blk, b_blk, hx, hh, hb]
  exact add_bias_last _ _ _

/-! ## What a grid point writes back -/

theorem origin_zero : (![0, 0] : Fin 2 → Nat) = fun _ => 0 := funext fun a => by fin_cases a <;> rfl

/-- Point t writes back, into the hidden-state array, block t of the specification's hidden state. -/
theorem hidden_flushed (c : Dev nD) (t : Fin cfg0.N) :
    (dats m 0 c).flushed 5 t = ((cfg0.win 5).blk t).view.read (Elt Ideal) (hiddenOf m c) := by
  obtain ⟨-, -, -, -, -, -, -, -, -, -, e50, e51, e60, e61⟩ := index_facts t
  show (cfg0.win 5).cut (grid0.coords t) ((dats m 0 c).after 5 t) = _
  rw [after_hidden]
  unfold hiddenOut
  rw [View.canon_unit_zero origin_zero]
  simp only [View.ld_unit_zero (S := S1024x512) origin_zero, View.ld_unit_zero (S := S512x1536) origin_zero,
    View.ld_unit_zero (S := S1x1536) origin_zero]
  funext j
  obtain ⟨p, q, rfl⟩ : ∃ (p : Fin 1024) (q : Fin 512), j = ix2 p q := ⟨j 0, j 1, eq_ix2 j⟩
  refine (hidden_at _ _ _ _ _ p q).trans ?_
  rw [logit_input m c t p q, logit_candidate m c t p q, logit_output m c t p q]
  show _ = hiddenOf m c (((cfg0.win 5).blk t).view.emb (ix2 p q))
  have hr : ((cfg0.win 5).blk t).view.emb (ix2 p q) = ix2 (row t p) q := funext fun a => Fin.ext (by
    match a with
    | ⟨0, _⟩ => show win0_5.index t (0 : Fin 2) * 1024 + 1 * p.val = t.val * 1024 + p.val; omega
    | ⟨1, _⟩ => show win0_5.index t (1 : Fin 2) * 512 + 1 * q.val = q.val; omega)
  rw [hr]
  rfl

/-- Point t writes back, into the cell-state array, block t of the specification's cell state. -/
theorem cell_flushed (c : Dev nD) (t : Fin cfg0.N) :
    (dats m 0 c).flushed 6 t = ((cfg0.win 6).blk t).view.read (Elt Ideal) (cellOf m c) := by
  obtain ⟨-, -, -, -, -, -, -, -, -, -, e50, e51, e60, e61⟩ := index_facts t
  show (cfg0.win 6).cut (grid0.coords t) ((dats m 0 c).after 6 t) = _
  rw [after_cell]
  unfold cellOut
  rw [View.canon_unit_zero origin_zero]
  simp only [View.ld_unit_zero (S := S1024x512) origin_zero, View.ld_unit_zero (S := S512x1536) origin_zero,
    View.ld_unit_zero (S := S1x1536) origin_zero]
  funext j
  obtain ⟨p, q, rfl⟩ : ∃ (p : Fin 1024) (q : Fin 512), j = ix2 p q := ⟨j 0, j 1, eq_ix2 j⟩
  refine (cell_at _ _ _ _ _ p q).trans ?_
  rw [logit_input m c t p q, logit_candidate m c t p q]
  show _ = cellOf m c (((cfg0.win 6).blk t).view.emb (ix2 p q))
  have hr : ((cfg0.win 6).blk t).view.emb (ix2 p q) = ix2 (row t p) q := funext fun a => Fin.ext (by
    match a with
    | ⟨0, _⟩ => show win0_6.index t (0 : Fin 2) * 1024 + 1 * p.val = t.val * 1024 + p.val; omega
    | ⟨1, _⟩ => show win0_6.index t (1 : Fin 2) * 512 + 1 * q.val = q.val; omega)
  rw [hr]
  rfl

/-! ## The blocks cover the arrays -/

/-- An index is in point t's block iff each coordinate is in the block's range on its axis. -/
theorem mem_hidden_blk (t : Fin cfg0.N) (i : S32768x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_v6_0).slice (win0_5.rect t)).set ↔ _
  rw [View.set_slice_whole, Rect.mem_set_unit]
  exact Iff.rfl
theorem mem_cell_blk (t : Fin cfg0.N) (i : S32768x512.Idx) :
    i ∈ ((cfg0.win 6).blk t).view.set ↔ ∀ a : Fin 2, win0_6.index t a * S1024x512.size a ≤ (i a).val
      ∧ (i a).val < win0_6.index t a * S1024x512.size a + S1024x512.size a := by
  show i ∈ ((View.whole main_v6_1).slice (win0_6.rect t)).set ↔ _
  rw [View.set_slice_whole, Rect.mem_set_unit]
  exact Iff.rfl

/-- Row r of an output array is written by point r / 1024. -/
theorem hidden_cover (i : S32768x512.Idx) :
    ∃ t : Fin cfg0.N, (cfg0.win 5).flush t = true ∧ i ∈ ((cfg0.win 5).blk t).view.set := by
  have hi0 : (i 0).val < 32768 := (i 0).isLt
  have hi1 : (i 1).val < 512 := (i 1).isLt
  have ht : (i 0).val / 1024 < cfg0.N := lt_of_lt_of_eq (by omega : (i 0).val / 1024 < 32) N_0.symm
  obtain ⟨-, -, -, -, -, -, -, -, -, -, e50, e51, e60, e61⟩ := index_facts ⟨(i 0).val / 1024, ht⟩
  refine ⟨⟨(i 0).val / 1024, ht⟩, flush0_5 _, (mem_hidden_blk _ i).mpr fun a => ?_⟩
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    have : (⟨(i 0).val / 1024, ht⟩ : Fin cfg0.N).val = (i 0).val / 1024 := rfl
    omega
  | ⟨1, _⟩ =>
    show win0_5.index ⟨(i 0).val / 1024, ht⟩ (1 : Fin 2) * 512 ≤ (i 1).val
      ∧ (i 1).val < win0_5.index ⟨(i 0).val / 1024, ht⟩ (1 : Fin 2) * 512 + 512
    omega
theorem cell_cover (i : S32768x512.Idx) :
    ∃ t : Fin cfg0.N, (cfg0.win 6).flush t = true ∧ i ∈ ((cfg0.win 6).blk t).view.set := by
  have hi0 : (i 0).val < 32768 := (i 0).isLt
  have hi1 : (i 1).val < 512 := (i 1).isLt
  have ht : (i 0).val / 1024 < cfg0.N := lt_of_lt_of_eq (by omega : (i 0).val / 1024 < 32) N_0.symm
  obtain ⟨-, -, -, -, -, -, -, -, -, -, e50, e51, e60, e61⟩ := index_facts ⟨(i 0).val / 1024, ht⟩
  refine ⟨⟨(i 0).val / 1024, ht⟩, flush0_6 _, (mem_cell_blk _ i).mpr fun a => ?_⟩
  match a with
  | ⟨0, _⟩ =>
    show win0_6.index ⟨(i 0).val / 1024, ht⟩ (0 : Fin 2) * 1024 ≤ (i 0).val
      ∧ (i 0).val < win0_6.index ⟨(i 0).val / 1024, ht⟩ (0 : Fin 2) * 1024 + 1024
    have : (⟨(i 0).val / 1024, ht⟩ : Fin cfg0.N).val = (i 0).val / 1024 := rfl
    omega
  | ⟨1, _⟩ =>
    show win0_6.index ⟨(i 0).val / 1024, ht⟩ (1 : Fin 2) * 512 ≤ (i 1).val
      ∧ (i 1).val < win0_6.index ⟨(i 0).val / 1024, ht⟩ (1 : Fin 2) * 512 + 512
    omega

/-! ## The arrays after the run -/

theorem hidden_final (c : Dev nD) : (dats m 0 c).arrAt 5 cfg0.N = hiddenOf m c :=
  (dats m 0 c).arrAt_eq_of_cover 5 (hiddenOf m c) (fun t _ => hidden_flushed m c t) hidden_cover
theorem cell_final (c : Dev nD) : (dats m 0 c).arrAt 6 cfg0.N = cellOf m c :=
  (dats m 0 c).arrAt_eq_of_cover 6 (cellOf m c) (fun t _ => cell_flushed m c t) cell_cover

/-- The run with both results named: the hidden-state array ends at the specification's hidden state,
    the cell-state array at its cell state, and the fifteen arguments as launched. -/
theorem run : θ_run defs (onTc (τ := τ) (main (F := Ideal))) ⟨m, fun _ => 0, ρ⟩ (fun r => ∀ c : Dev nD,
      r.2.mem ((c.tc : Thread nD τ).loc main_v6_0) = hiddenOf m c
      ∧ r.2.mem ((c.tc : Thread nD τ).loc main_v6_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨((h c).1 5).trans (hidden_final m c), ((h c).1 6).trans (cell_final m c),
    end_arg0 h c, end_arg1 h c, end_arg2 h c, end_arg3 h c, end_arg4 h c, end_arg5 h c, end_arg6 h c, end_arg7 h c,
    end_arg8 h c, end_arg9 h c, end_arg10 h c, end_arg11 h c, end_arg12 h c, end_arg13 h c, end_arg14 h c⟩)
    (run_main m ρ)

end Cert.KernelIdeal.Final

end
-- ==== Proof.RefIsSpec.lean ====
/-
  The reference program computes the specification.

  Its main function forms, for each of the input gate, the candidate and the output gate, the logit
  (x.W + b) + h.U: a matrix product, the bias broadcast along the batch axis, and a second matrix
  product, added in that order. That is the specification's `logit` read at an index: a matrix
  product's entry (r, j) is the sum over k of the left factor at (r, k) times the right at (k, j), and
  the broadcast bias at (r, j) is b(j). The sigmoid is spelled 1 / (1 + e^(-z)), which is the logistic
  function by definition. So the second result is  logistic(z_i) * tanh(z_g) = c'  and the first is
  logistic(z_o) * tanh(c') = h', at every index.
-/
import proofs.«101878_j76647986364859_2_alg».proof.Proof.Gen.ReferenceIdeal.Read
import proofs.«101878_j76647986364859_2_alg».proof.Proof.Spec

noncomputable section

namespace Cert.ReferenceIdeal.IsSpec

open Cert.ReferenceIdeal Cert.ReferenceIdeal.Read Cert.LstmSpec
open Idealize.ShloMosaic Idealize.ShloMosaic.ValueIdx

/-- An index of a two-axis shape is determined by its two coordinates. -/
theorem two_coords {n0 n1 : Nat} (f : (⟨2, ![n0, n1]⟩ : Shape).Idx) (a : Fin n0) (b : Fin n1)
    (h0 : f 0 = a) (h1 : f 1 = b) : f = ix2 a b := by
  subst h0 h1; exact eq_ix2 f
/-- An index of a one-axis shape is determined by its coordinate. -/
theorem one_coord {n : Nat} (f : (⟨1, ![n]⟩ : Shape).Idx) (a : Fin n) (h0 : f 0 = a) : f = ix1 a := by
  subst h0; exact eq_ix1 f

/-! ## The three logits -/

/-- The input gate's logit. -/
theorem logit_input (x0 x1 : (⟨S32768x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (i : S32768x512.Idx) :
    val_main_v5 (F := Ideal) x0 x1 x3 x4 x5 i = logit x0 x1 x3 x5 x4 (i 0) (i 1) := by
  have e1 : ∀ k, lidx_main_v0 i k = ix2 (i 0) k := fun k => two_coords _ _ _ rfl rfl
  have e2 : ∀ k, ridx_main_v0 i k = ix2 k (i 1) := fun k => two_coords _ _ _ rfl rfl
  have e3 : ∀ k, lidx_main_v4 i k = ix2 (i 0) k := fun k => two_coords _ _ _ rfl rfl
  have e4 : ∀ k, ridx_main_v4 i k = ix2 k (i 1) := fun k => two_coords _ _ _ rfl rfl
  have e5 : idx_main_v1 (idx_main_v2 i) = ix1 (i 1) := one_coord _ _ rfl
  rw [val_main_v5_apply, val_main_v3_apply, val_main_v0_apply, val_main_v2_apply, val_main_v1_apply, val_main_v4_apply]
  simp only [Ideal.addf_def, e1, e2, e3, e4, e5]
  rfl

/-- The candidate's logit. -/
theorem logit_candidate (x0 x1 : (⟨S32768x512, .f32⟩ : BufTy).Contents (Elt Ideal)) (x9 : (⟨S512x512, .f32⟩ : BufTy).Contents (Elt Ideal)) (x10 : (⟨S512, .f32⟩ : BufTy).Contents (Elt Ideal)) (x11 : (⟨S512x512, .f32⟩ : BufTy).Contents (Elt Ideal)) (i : S32768x512.Idx) :
    val_main_v29 (F := Ideal) x0 x1 x9 x10 x11 i = logit x0 x1 x9 x11 x10 (i 0) (i 1) := by
  have e1 : ∀ k, lidx_main_v24 i k = ix2 (i 0) k := fun k => two_coords _ _ _ rfl rfl
  have e2 : ∀ k, ridx_main_v24 i k = ix2 k (i 1) := fun k => two_coords _ _ _ rfl rfl
  have e3 : ∀ k, lidx_main_v28 i k = ix2 (i 0) k := fun k => two_coords _ _ _ rfl rfl
  have e4 : ∀ k, ridx_main_v28 i k = ix2 k (i 1) := fun k => two_coords _ _ _ rfl rfl
  have e5 : idx_main_v25 (idx_main_v26 i) = ix1 (i 1) := one_coord _ _ rfl
  rw [val_main_v29_apply, val_main_v27_apply, val_main_v24_apply, val_main_v26_apply, val_main_v25_apply, val_main_v28_apply]
  simp only [Ideal.addf_def, e1, e2, e3, e4, e5]
  rfl

/-- The output gate's logit. -/
theorem logit_output (x0 x1 : (⟨S32768x512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (i : S32768x512.Idx) :
    val_main_v37 (F := Ideal) x0 x1 x12 x13 x14 i = logit x0 x1 x12 x14 x13 (i 0) (i 1) := by
  have e1 : ∀ k, lidx_main_v32 i k = ix2 (i 0) k := fun k => two_coords _ _ _ rfl rfl
  have e2 : ∀ k, ridx_main_v32 i k = ix2 k (i 1) := fun k => two_coords _ _ _ rfl rfl
  have e3 : ∀ k, lidx_main_v36 i k = ix2 (i 0) k := fun k => two_coords _ _ _ rfl rfl
  have e4 : ∀ k, ridx_main_v36 i k = ix2 k (i 1) := fun k => two_coords _ _ _ rfl rfl
  have e5 : idx_main_v33 (idx_main_v34 i) = ix1 (i 1) := one_coord _ _ rfl
  rw [val_main_v37_apply, val_main_v35_apply, val_main_v32_apply, val_main_v34_apply, val_main_v33_apply, val_main_v36_apply]
  simp only [Ideal.addf_def, e1, e2, e3, e4, e5]
  rfl

/-! ## The two sigmoids that reach a result -/

/-- The input gate: the spelled-out sigmoid of its logit. -/
theorem gate_input (x0 x1 : (⟨S32768x512, .f32⟩ : BufTy).Contents (Elt Ideal)) (x3 : (⟨S512x512, .f32⟩ : BufTy).Contents (Elt Ideal)) (x4 : (⟨S512, .f32⟩ : BufTy).Contents (Elt Ideal)) (x5 : (⟨S512x512, .f32⟩ : BufTy).Contents (Elt Ideal)) (i : S32768x512.Idx) :
    val_main_v11 (F := Ideal) x0 x1 x3 x4 x5 i = Ideal.logistic (val_main_v5 (F := Ideal) x0 x1 x3 x4 x5 i) := by
  rw [val_main_v11_apply, val_main_v10_apply, val_main_cst_0_apply, val_main_v9_apply, val_main_v8_apply,
    val_main_cst_apply, val_main_v7_apply, val_main_v6_apply]
  simp only [Ideal.hostDivf_def, Ideal.addf_def, Ideal.hostUnary_exp_def, Ideal.hostNegf_def, Ideal.negf_def, Ideal.ofBits_def]
  exact sigmoid_spelled _

/-- The output gate: the spelled-out sigmoid of its logit. -/
theorem gate_output (x0 x1 : (⟨S32768x512, .f32⟩ : BufTy).Contents (Elt Ideal)) (x12 : (⟨S512x512, .f32⟩ : BufTy).Contents (Elt Ideal)) (x13 : (⟨S512, .f32⟩ : BufTy).Contents (Elt Ideal)) (x14 : (⟨S512x512, .f32⟩ : BufTy).Contents (Elt Ideal)) (i : S32768x512.Idx) :
    val_main_v43 (F := Ideal) x0 x1 x12 x13 x14 i = Ideal.logistic (val_main_v37 (F := Ideal) x0 x1 x12 x13 x14 i) := by
  rw [val_main_v43_apply, val_main_v42_apply, val_main_cst_4_apply, val_main_v41_apply, val_main_v40_apply,
    val_main_cst_3_apply, val_main_v39_apply, val_main_v38_apply]
  simp only [Ideal.hostDivf_def, Ideal.addf_def, Ideal.hostUnary_exp_def, Ideal.hostNegf_def, Ideal.negf_def, Ideal.ofBits_def]
  exact sigmoid_spelled _

/-! ## The two results -/

/-- The reference's second result is the new cell state: input gate times tanh of the candidate's logit. -/
theorem cell_is_spec (x0 x1 : (⟨S32768x512, .f32⟩ : BufTy).Contents (Elt Ideal)) (x3 : (⟨S512x512, .f32⟩ : BufTy).Contents (Elt Ideal)) (x4 : (⟨S512, .f32⟩ : BufTy).Contents (Elt Ideal)) (x5 x9 : (⟨S512x512, .f32⟩ : BufTy).Contents (Elt Ideal)) (x10 : (⟨S512, .f32⟩ : BufTy).Contents (Elt Ideal)) (x11 : (⟨S512x512, .f32⟩ : BufTy).Contents (Elt Ideal)) :
    val_main_v31 (F := Ideal) x0 x1 x3 x4 x5 x9 x10 x11 = cellArr x0 x1 x3 x5 x9 x11 x4 x10 := by
  funext i
  rw [val_main_v31_apply, gate_input, logit_input, val_main_v30_apply, logit_candidate]
  simp only [Ideal.mulf_def, Ideal.hostUnary_tanh_def]
  rfl

/-- The reference's first result is the new hidden state: output gate times tanh of the new cell state. -/
theorem hidden_is_spec (x0 x1 : (⟨S32768x512, .f32⟩ : BufTy).Contents (Elt Ideal)) (x3 : (⟨S512x512, .f32⟩ : BufTy).Contents (Elt Ideal)) (x4 : (⟨S512, .f32⟩ : BufTy).Contents (Elt Ideal)) (x5 x9 : (⟨S512x512, .f32⟩ : BufTy).Contents (Elt Ideal)) (x10 : (⟨S512, .f32⟩ : BufTy).Contents (Elt Ideal)) (x11 x12 : (⟨S512x512, .f32⟩ : BufTy).Contents (Elt Ideal))
    (x13 : (⟨S512, .f32⟩ : BufTy).Contents (Elt Ideal)) (x14 : (⟨S512x512, .f32⟩ : BufTy).Contents (Elt Ideal)) :
    val_main_v45 (F := Ideal) x0 x1 x3 x4 x5 x9 x10 x11 x12 x13 x14
      = hiddenArr x0 x1 x3 x5 x9 x11 x12 x14 x4 x10 x13 := by
  funext i
  rw [val_main_v45_apply, gate_output, logit_output, val_main_v44_apply, cell_is_spec]
  simp only [Ideal.mulf_def, Ideal.hostUnary_tanh_def]
  rfl

end Cert.ReferenceIdeal.IsSpec

end
-- ==== Proof.lean ====
/-
  The certificate: a fused LSTM cell step on the TensorCore against its plain reference.

  Both programs take a batch x and a hidden state h of 32768 rows by 512 features, and for each of
  the input gate, the candidate and the output gate an input weight matrix, a hidden weight matrix
  and a bias. They return  h' = o * tanh(c')  and  c' = i * g,  where  i, o = logistic(logit)  and
  g = tanh(logit), and a gate's logit at (r, j) is  sum_k x(r,k) W(k,j) + b(j) + sum_k h(r,k) U(k,j).
  (The forget gate and the previous cell state are arguments of both programs and enter neither result.)

  The kernel lays the three gates' matrices side by side, forms all three logits with two matrix
  products per block of 1024 rows, adds the bias last, and cuts the 1536 logit columns into three
  panels; it walks the batch in 32 such blocks. The reference forms each gate separately over the
  whole batch, adding the bias between the two products, and spells the sigmoid 1 / (1 + e^(-z)).

  Frames. Each program runs to the end without fault and leaves its fifteen arguments as launched: the
  kernel at either reading of floats, because the host operations before the region write only their
  own results, the body's triple holds at every grid point, and the pipeline writes back only into the
  two result arrays; the reference because it is a straight line of host operations, each writing its
  own result.

  Equal results over the extended reals. Narrowing to bf16 is the identity there, a matrix product
  into zero is the plain sum, logistic(z) is 1 / (1 + e^(-z)) by definition, and the kernel's
  (x.W + h.U) + b is the reference's (x.W + b) + h.U because addition is commutative and associative
  (at the infinities too, so the precondition is not used). Column q of a panel of the side-by-side
  matrices is column q of the matching gate's matrix, and the 32 row blocks cover the batch: so both
  programs' results are one function of the arguments, entry by entry.

  The idealized kernel is the kernel's own text read over the extended reals: no operation was
  rewritten, and there is nothing to preserve.
-/
import proofs.«101878_j76647986364859_2_alg».proof.Defs
import proofs.«101878_j76647986364859_2_alg».proof.Proof.BitsRun
import proofs.«101878_j76647986364859_2_alg».proof.Proof.Final
import proofs.«101878_j76647986364859_2_alg».proof.Proof.RefIsSpec
import proofs.«101878_j76647986364859_2_alg».proof.Proof.Gen.Kernel
import proofs.«101878_j76647986364859_2_alg».proof.Proof.Gen.KernelIdeal
import proofs.«101878_j76647986364859_2_alg».proof.Proof.Gen.ReferenceIdeal
import proofs.«101878_j76647986364859_2_alg».proof.Proof.Gen.ReferenceIdeal.Run
import proofs.«101878_j76647986364859_2_alg».proof.Proof.Gen.ReferenceIdeal.Read
import proofs.«101878_j76647986364859_2_alg».proof.Proof.Gen.Pre_finite_inputs
import Idealize.ShloMosaic.Adequacy
import Idealize.ShloMosaic.Init

noncomputable section

namespace Cert.Proof

open Idealize.ShloMosaic Idealize.SL.Sem

/-- The kernel as printed, floats read word for word: it runs and keeps its arguments. -/
theorem frame_kernel : Cert.frame_Kernel (hKernel := Cert.Kernel.Gen.facts)
    (hPre_finite_inputs := Cert.Pre_finite_inputs.Gen.facts) :=
  fun m ρ _ => Cert.Kernel.Run.frame (F := Bits) m ρ

/-- The same text read over the extended reals. -/
theorem frame_kernel_ideal : Cert.frame_KernelIdeal (hKernelIdeal := Cert.KernelIdeal.Gen.facts)
    (hPre_finite_inputs := Cert.Pre_finite_inputs.Gen.facts) :=
  fun m ρ _ => Cert.KernelIdeal.Run.frame (F := Ideal) m ρ

/-- The reference: its run, with the two results dropped. -/
theorem frame_reference_ideal : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- No operation of the kernel was rewritten for the extended reals. -/
theorem preserves : Cert.preserves_Kernel_KernelIdeal := trivial

/-- From memories that agree on the arguments both programs end with the specification's hidden state
    and cell state of those arguments: the kernel by its run read as whole arrays, the reference by its
    run read one operation at a time. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Final.hiddenOf m c, fun c => Cert.KernelIdeal.Final.cellOf m c, Cert.KernelIdeal.Final.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14⟩ := hagree c
  refine ⟨?_, ?_, (h c).2.2⟩
  · refine ((h c).1.trans (Cert.ReferenceIdeal.Read.val_main_v45_eq _ _ _ _ _ _ _ _ _ _ _)).trans
      ((Cert.ReferenceIdeal.IsSpec.hidden_is_spec _ _ _ _ _ _ _ _ _ _ _).trans ?_)
    rw [a0, a1, a3, a4, a5, a9, a10, a11, a12, a13, a14]
    rfl
  · refine ((h c).2.1.trans (Cert.ReferenceIdeal.Read.val_main_v31_eq _ _ _ _ _ _ _ _)).trans
      ((Cert.ReferenceIdeal.IsSpec.cell_is_spec _ _ _ _ _ _ _ _).trans ?_)
    rw [a0, a1, a3, a4, a5, a9, a10, a11]
    rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
